-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41A00000#32 ((268435456 / 13421773 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S8192 : Shape := ⟨1, ![8192]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel

variable [Facts]

def fn {F : FTy → Type} [FloatOps F] (main_arg0 : FVec F S8192x1024 .f32) (main_arg1 : IVec S8192 32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  main_v3
-- ==== Kernel.lean ====
abbrev S8192x1024 : Shape := ⟨2, ![8192, 1024]⟩
abbrev S8192 : Shape := ⟨1, ![8192]⟩
abbrev S8192x1 : Shape := ⟨2, ![8192, 1]⟩
abbrev S1x8192 : Shape := ⟨2, ![1, 8192]⟩
abbrev S1024x1024 : Shape := ⟨2, ![1024, 1024]⟩
abbrev S1024x1 : Shape := ⟨2, ![1024, 1]⟩
abbrev S1x1024 : Shape := ⟨2, ![1, 1024]⟩
abbrev S1024 : Shape := ⟨1, ![1024]⟩
abbrev S_ : Shape := ⟨0, ![]⟩

abbrev nBuf : Space → Nat
  | .hbm => 17
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S8192x1024, .bf16⟩
  | .hbm, ⟨3, _⟩ => ⟨S8192x1, .i32⟩
  | .hbm, ⟨4, _⟩ => ⟨S1x8192, .i32⟩
  | .hbm, ⟨5, _⟩ => ⟨S8192x1, .f32⟩
  | .hbm, ⟨6, _⟩ => ⟨S8192x1, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1, .i32⟩
  | .local _ .vmem, ⟨5, _⟩ => ⟨S1024x1, .i32⟩
  | .local _ .vmem, ⟨6, _⟩ => ⟨S1x1024, .i32⟩
  | .local _ .vmem, ⟨7, _⟩ => ⟨S1x1024, .i32⟩
  | .local _ .vmem, ⟨8, _⟩ => ⟨S1024x1, .f32⟩
  | .local _ .vmem, ⟨9, _⟩ => ⟨S1024x1, .f32⟩
  | .local _ .vmem, ⟨10, _⟩ => ⟨S1024x1, .f32⟩
  | .local _ .vmem, ⟨11, _⟩ => ⟨S1024x1, .f32⟩
  | .local _ .vmem, ⟨12, _⟩ => ⟨S1024x1, .f32⟩
  | .local _ .vmem, ⟨13, _⟩ => ⟨S1024x1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3_0 : Ref sig .tc := ⟨.hbm, 5, rfl⟩
abbrev main_v3_1 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![8, 8], ![false, false]⟩

def k0_cond2 (i : grid0.Coords) : BitVec 1 :=
  let arg1 : BitVec 32 := BitVec.ofNat 32 (i 1).val
  let c7_i32 : BitVec 32 := 7#32
  let v36 : BitVec 1 := Scalar.cmpi .eq arg1 c7_i32
  let v37 : BitVec 32 := Scalar.extui v36
  let c0_i32_19 : BitVec 32 := 0#32
  let v38 : BitVec 1 := Scalar.cmpi .ne v37 c0_i32_19
  v38

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1024x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  bitsLt_bf16_f32 : FTy.bits .bf16 < FTy.bits .f32
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  natLt_1_32 : 1 < 32
  reduces_S1024x1024_S1024 : S1024x1024.Reduces [1] S1024
  shapeCasts_S1024_S1024x1 : S1024.ShapeCasts S1024x1
  reducesTo_S8192x1_S_d0_1 : S8192x1.ReducesTo [0, 1] S_
  h_S_ : 0 < S_.numel
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S8192x1024.size a
  hwx0_0 : ∀ i : grid0.Coords, EltTy.bits .bf16 = 32 ∨ (Rect.block (s := S8192x1024) S1024x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S8192x1024.size a
  hwx0_1 : ∀ i : grid0.Coords, EltTy.bits .bf16 = 32 ∨ (Rect.block (s := S8192x1024) S1024x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S8192x1.size a
  hwx0_2 : ∀ i : grid0.Coords, EltTy.bits .i32 = 32 ∨ (Rect.block (s := S8192x1) S1024x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x8192.size a
  hwx0_3 : ∀ i : grid0.Coords, EltTy.bits .i32 = 32 ∨ (Rect.block (s := S1x8192) S1x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1.size a ≤ S8192x1.size a
  hwx0_4 : ∀ i : grid0.Coords, EltTy.bits .f32 = 32 ∨ (Rect.block (s := S8192x1) S1024x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1.size a ≤ S8192x1.size a
  hwx0_5 : ∀ i : grid0.Coords, EltTy.bits .f32 = 32 ∨ (Rect.block (s := S8192x1) S1024x1.size (cc0_transform_5 i) (hinb0_5 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_v0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_0) S1024x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v3_1) S1024x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun i => !(k0_cond2 i == 1#1) | 5 => fun i => !(k0_cond2 i == 1#1) | ⟨_ + 6, h⟩ => absurd h (Nat.not_lt.2 (Nat.le_add_left _ _))

class Facts : Prop extends Facts₀ where

variable [Facts]
-- ==== ReferenceIdeal.lean ====
abbrev S8192x1024 : Shape := ⟨2, ![8192, 1024]⟩
abbrev S8192 : Shape := ⟨1, ![8192]⟩
abbrev S1024x8192 : Shape := ⟨2, ![1024, 8192]⟩
abbrev S8192x8192 : Shape := ⟨2, ![8192, 8192]⟩
abbrev S_ : Shape := ⟨0, ![]⟩
abbrev S8192x1 : Shape := ⟨2, ![8192, 1]⟩
abbrev S1x8192 : Shape := ⟨2, ![1, 8192]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192, .i32⟩
  | .hbm, ⟨2, _⟩ => ⟨S1024x8192, .f32⟩
  | .hbm, ⟨3, _⟩ => ⟨S8192x8192, .f32⟩
  | .hbm, ⟨4, _⟩ => ⟨S_, .f32⟩
  | .hbm, ⟨5, _⟩ => ⟨S8192x8192, .f32⟩
  | .hbm, ⟨6, _⟩ => ⟨S8192x8192, .f32⟩
  | .hbm, ⟨7, _⟩ => ⟨S8192x1, .i32⟩
  | .hbm, ⟨8, _⟩ => ⟨S1x8192, .i32⟩
  | .hbm, ⟨9, _⟩ => ⟨S8192x8192, .i32⟩
  | .hbm, ⟨10, _⟩ => ⟨S8192x8192, .i32⟩
  | .hbm, ⟨11, _⟩ => ⟨S8192x8192, .i1⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S8192x1, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_1 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩

abbrev nD : Nat := 1
abbrev τ : Topo := Topo.v7x

variable {F : FTy → Type} [FloatOps F]

class Facts₀ : Prop where
  transposes_S8192x1024_S1024x8192_1_0 : S8192x1024.Transposes [1, 0] S1024x8192
  bcast_S_S8192x8192 : S_.BroadcastsInDim S8192x8192 (![] : Fin 0 → Fin S8192x8192.rank)
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  reducesTo_S8192x8192_S8192_d1 : S8192x8192.ReducesTo [1] S8192
  h_S_ : 0 < S_.numel
  reducesTo_S8192x8192_S_d0_1 : S8192x8192.ReducesTo [0, 1] S_
  dot_S8192x1024_S1024x8192_S8192x8192_1_0_0_1_n_n_wf : DotDims.WF S8192x1024 S1024x8192 S8192x8192 [1] [0] [0] [1] [] []

variable [Facts₀]

def dot_S8192x1024_S1024x8192_S8192x8192_1_0_0_1_n_n : DotDims S8192x1024 S1024x8192 S8192x8192 where
  lhsContracting := [1]
  rhsContracting := [0]
  lhsNonContracting := [0]
  rhsNonContracting := [1]
  lhsBatch := []
  rhsBatch := []
  wf := dot_S8192x1024_S1024x8192_S8192x8192_1_0_0_1_n_n_wf

class Facts : Prop extends Facts₀ where

variable [Facts]
-- ==== Proof.K.BodyCommon.lean ====
/-
  What the three runs of the kernel body share. The grid is 8 × 8: point t has row-block index t / 8 and column-block
  index t % 8. The body zeroes its two column accumulators when the column-block index is 0, adds this tile's
  contribution to each, and when the column-block index is 7 writes the finished columns out. So a point is in one of
  three cases — first column block, a middle one, the last — decided here in closed form over the grid. Also: what a
  buffer reads as after the body stored a whole column into it once or twice.
-/
import proofs.«148247_j71236327571460_1_alg».proof.Proof.Gen.Kernel.Launch
import proofs.«148247_j71236327571460_1_alg».proof.Proof.Gen.Kernel.Skeleton
import proofs.«148247_j71236327571460_1_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The column-block index is 0: the accumulators are zeroed at this point. -/
abbrev condFirst (i : grid0.Coords) : Prop := (Scalar.cmpi .ne (Scalar.extui (Scalar.cmpi .eq (BitVec.ofNat 32 (i 1).val) 0#32)) 0#32) = 1#1
/-- The column-block index is 7: the finished columns are written out at this point. -/
abbrev condLast (i : grid0.Coords) : Prop := k0_cond2 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

/-- The zero offsets of a whole-block access, however spelt. -/
theorem hz2 : (![0, 0] : Fin 2 → Nat) = fun _ => 0 := by funext a; fin_cases a <;> rfl

/-- A buffer into which one whole column was stored reads as that column. -/
theorem read_stored1 (v : View sig .tc .vmem S1024x1 .f32) (f : v.ty.Contents (Elt F)) (w : Vec F S1024x1 .f32) :
    v.read (Elt F) (v.writes (Elt F) f [⟨Rect.unit (s := S1024x1) ![0, 0] S1024x1.size inb_S1024x1_S1024x1_0_0, w⟩]) = w := by
  rw [View.read_writes_eq_canon _ _ _ (fun y => ⟨_, List.mem_singleton_self _, View.mem_set_unit_zero hz2 inb_S1024x1_S1024x1_0_0 y⟩), View.canon_unit_zero hz2]

/-- A buffer into which two whole columns were stored reads as the later one. -/
theorem read_stored2 (v : View sig .tc .vmem S1024x1 .f32) (f : v.ty.Contents (Elt F)) (w w' : Vec F S1024x1 .f32) :
    v.read (Elt F) (v.writes (Elt F) f [⟨Rect.unit (s := S1024x1) ![0, 0] S1024x1.size inb_S1024x1_S1024x1_0_0, w⟩,
      ⟨Rect.unit (s := S1024x1) ![0, 0] S1024x1.size inb_S1024x1_S1024x1_0_0, w'⟩]) = w := by
  rw [View.read_writes_eq_canon _ _ _ (fun y => ⟨_, List.mem_cons_self, View.mem_set_unit_zero hz2 inb_S1024x1_S1024x1_0_0 y⟩), View.canon_cons_unit_zero hz2]

/-- A whole-column load from a buffer into which that whole column was just stored reads the column. -/
theorem readCov_stored (v : View sig .tc .vmem S1024x1 .f32) (w : Vec F S1024x1 .f32) :
    v.readCov [⟨Rect.unit (s := S1024x1) ![0, 0] S1024x1.size inb_S1024x1_S1024x1_0_0, w⟩]
      (Rect.unit (s := S1024x1) ![0, 0] S1024x1.size inb_S1024x1_S1024x1_0_0).toLoadRect = w :=
  View.readCov_unit_zero v hz2 inb_S1024x1_S1024x1_0_0 w

end Cert.Kernel.Hand

end
-- ==== Proof.K.Dat.lean ====
/-
  The proof data of the one pipeline. When the region is entered the unscoped buffers hold the launch memory after the
  three host operations (the format change of the feature matrix and the two re-layouts of the label vector). Each input
  window's block at a point is read off those contents. The two column accumulators are defined by recursion on the
  point: at a point of the first column block they are this tile's contribution over the zero column, at any other point
  this tile's contribution over what the point before left. After the body the inputs' buffers hold their blocks, the
  first output's buffer the logits' accumulator and the second's the logarithm of the exponentials' accumulator (read by
  the pipeline only at the points that write them back, the last column block of each row block). The invariant between
  points is the two scratch buffers at the accumulators' contents. The feature matrix is read through two windows, so its
  buffer is held half by each.
-/
import proofs.«148247_j71236327571460_1_alg».proof.Proof.K.BodyCommon
import Idealize.ShloMosaic.Lib.Pipeline.Frame

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m (c, b)
/-- and when the region is entered, read at a TensorCore reference: the three host operations have run. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at the body's types: the row block and the column block of the feature matrix,
    the row block's labels as a column, the column block's labels as a row. -/
abbrev rowsAt (c : Dev nD) (t : Fin cfg0.N) : Vec F S1024x1024 .bf16 := iblk m c 0 t
abbrev colsAt (c : Dev nD) (t : Fin cfg0.N) : Vec F S1024x1024 .bf16 := iblk m c 1 t
abbrev rowLabsAt (c : Dev nD) (t : Fin cfg0.N) : Vec F S1024x1 .i32 := iblk m c 2 t
abbrev colLabsAt (c : Dev nD) (t : Fin cfg0.N) : Vec F S1x1024 .i32 := iblk m c 3 t

/-- One point's step of the two accumulators (the exponentials', the logits') from what they held. -/
def step (c : Dev nD) (t : Fin cfg0.N) (s : Vec F S1024x1 .f32 × Vec F S1024x1 .f32) : Vec F S1024x1 .f32 × Vec F S1024x1 .f32 :=
  (k0_pay6 (rowsAt m c t) (colsAt m c t) (rowLabsAt m c t) (colLabsAt m c t) s.1, k0_pay1 (k0_pay7 (rowsAt m c t) (colsAt m c t) s.2))

/-- The zero columns the accumulators restart from at a first column block. -/
def zeros : Vec F S1024x1 .f32 × Vec F S1024x1 .f32 := (k0_pay3, k0_pay4)

/-- THE ACCUMULATION: what the two scratch buffers hold after the body at position `n`. -/
def acc (c : Dev nD) : (n : ℕ) → n < cfg0.N → Vec F S1024x1 .f32 × Vec F S1024x1 .f32
  | 0, hn => step m c ⟨0, hn⟩ zeros
  | n + 1, hn => if (n + 1) % 8 = 0 then step m c ⟨n + 1, hn⟩ zeros else step m c ⟨n + 1, hn⟩ (acc c n (Nat.lt_of_succ_lt hn))

/-- At a point of a first column block the accumulators restart. -/
theorem acc_first (c : Dev nD) (t : Fin cfg0.N) (h : t.val % 8 = 0) : acc m c t.val t.isLt = step m c t zeros := by
  obtain ⟨n, hn⟩ := t
  cases n with
  | zero => rfl
  | succ n => exact if_pos h

/-- At any other point they continue from the point before. -/
theorem acc_next (c : Dev nD) (t : Fin cfg0.N) (h : ¬t.val % 8 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h
  | succ n => exact if_neg h

/-- The two scratch operands: whole scoped buffers of the kernel's own. -/
abbrev sc0 : Memref sig .tc .vmem S1024x1 .f32 := Memref.whole cc0_scratch0
abbrev sc1 : Memref sig .tc .vmem S1024x1 .f32 := Memref.whole cc0_scratch1

/-- The invariant before position `n`: before the first point the scratch buffers at anything, afterwards at what the
    point before left. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, hn => iprop(owns (c : Thread nD τ) sc0 fullShare (acc m c n hn).1 ∗ owns (c : Thread nD τ) sc1 fullShare (acc m c n hn).2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl

theorem PhiS_succ (c : Dev nD) (n : ℕ) (hn : n < cfg0.N) :
    PhiS m c (n + 1) hn = iprop(owns (c : Thread nD τ) sc0 fullShare (acc m c n hn).1 ∗ owns (c : Thread nD τ) sc1 fullShare (acc m c n hn).2) := rfl

theorem PhiS_pos (c : Dev nD) (n : ℕ) (h : n ≤ cfg0.N) (hz : n ≠ 0) :
    PhiS m c n h = iprop(owns (c : Thread nD τ) sc0 fullShare (acc m c (n - 1) (by omega)).1 ∗ owns (c : Thread nD τ) sc1 fullShare (acc m c (n - 1) (by omega)).2) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (acc m c t.val t.isLt).2
    | ⟨5, _⟩ => k0_pay2 (acc m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (acc m c t.val t.isLt).2 := by dsimp only [dats]
theorem after5 (c : Dev nD) (t : Fin cfg0.N) : (dats m 0 c).after 5 t = k0_pay2 (acc m c t.val t.isLt).1 := by dsimp only [dats]

/-- Each input's current staging buffer holds its block at every point, fetched there or not: unfetched, the block index
    has not moved since the fetch. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.Kernel.Hand

end
-- ==== Proof.K.BodyA.lean ====
/-
  The kernel body at a point of the first column block: both accumulators are zeroed, then take this tile's
  contribution; whatever they held before is overwritten, and the two output buffers are not touched.
-/
import proofs.«148247_j71236327571460_1_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runFirst (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : condFirst i) (hc1 : ¬condLast i)
    (a b : Vec F S1024x1024 .bf16) (la : Vec F S1024x1 .i32) (lb : Vec F S1x1024 .i32) (o6 o7 s8 s9 : Vec F S1024x1 .f32)
    (E : Set ℕ) (K : PUnit → sProp 𝕄) :
    iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare (k0_pay6 a b la lb k0_pay3) ∗ owns (c : Thread nD τ) arg9 fullShare (k0_pay1 (k0_pay7 a b k0_pay4))) -∗ K ⟨⟩))
      ⊢ wp frame (wpE (defs₀ (F := F)) Variants.none c none) E (cc0__infonce_kernel i arg2 harg2 arg3 harg3 arg4 harg4 arg5 harg5 arg6 harg6 arg7 harg7 arg8 harg8 arg9 harg9) K := by
  simp only [cc0__infonce_kernel_eq_skeleton]; unfold cc0__infonce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr; swap; · iexact H8
    ipureintro
    sl_unfold_run_names
    rw [read_stored2]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact congrArg (k0_pay6 a b la lb) (readCov_stored _ _)
  · iexists _; isplitr; swap; · iexact H9
    ipureintro
    sl_unfold_run_names
    rw [read_stored2]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact congrArg (fun s => k0_pay1 (k0_pay7 a b s)) (readCov_stored _ _)

end Cert.Kernel.Hand

end
-- ==== Proof.K.BodyB.lean ====
/-
  The kernel body at a point whose column block is neither the first nor the last: both accumulators take this
  tile's contribution on top of what they held; the two output buffers are not touched.
-/
import proofs.«148247_j71236327571460_1_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runMid (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : ¬condLast i)
    (a b : Vec F S1024x1024 .bf16) (la : Vec F S1024x1 .i32) (lb : Vec F S1x1024 .i32) (o6 o7 s8 s9 : Vec F S1024x1 .f32)
    (E : Set ℕ) (K : PUnit → sProp 𝕄) :
    iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare (k0_pay6 a b la lb s8) ∗ owns (c : Thread nD τ) arg9 fullShare (k0_pay1 (k0_pay7 a b s9))) -∗ K ⟨⟩))
      ⊢ wp frame (wpE (defs₀ (F := F)) Variants.none c none) E (cc0__infonce_kernel i arg2 harg2 arg3 harg3 arg4 harg4 arg5 harg5 arg6 harg6 arg7 harg7 arg8 harg8 arg9 harg9) K := by
  simp only [cc0__infonce_kernel_eq_skeleton]; unfold cc0__infonce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr; swap; · iexact H8
    ipureintro
    rw [read_stored1]
    simp only [View.readAt_eq_ld, harg2.read_unread, harg3.read_unread, harg4.read_unread, harg5.read_unread, harg8.read_unread,
      View.ld_unit_zero (S := S1024x1024) hz2, View.ld_unit_zero (S := S1024x1) hz2, View.ld_unit_zero (S := S1x1024) hz2]
  · iexists _; isplitr; swap; · iexact H9
    ipureintro
    rw [read_stored1]
    sl_unfold_run_names
    simp only [View.readAt_eq_ld, harg2.read_unread, harg3.read_unread, harg9.read_unread,
      View.ld_unit_zero (S := S1024x1024) hz2, View.ld_unit_zero (S := S1024x1) hz2]

end Cert.Kernel.Hand

end
-- ==== Proof.K.BodyC.lean ====
/-
  The kernel body at a point of the last column block: both accumulators take this tile's contribution on top of what
  they held, and the finished columns are written out — the first output buffer receives the logits' row sums, the
  second the logarithm of the masked exponentials' row sums.
-/
import proofs.«148247_j71236327571460_1_alg».proof.Proof.K.BodyCommon

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem runLast (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : condLast i)
    (a b : Vec F S1024x1024 .bf16) (la : Vec F S1024x1 .i32) (lb : Vec F S1x1024 .i32) (o6 o7 s8 s9 : Vec F S1024x1 .f32)
    (E : Set ℕ) (K : PUnit → sProp 𝕄) :
    iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare a ∗ owns (c : Thread nD τ) arg3 fullShare b ∗ owns (c : Thread nD τ) arg4 fullShare la ∗ owns (c : Thread nD τ) arg5 fullShare lb
            ∗ owns (c : Thread nD τ) arg6 fullShare (k0_pay1 (k0_pay7 a b s9)) ∗ owns (c : Thread nD τ) arg7 fullShare (k0_pay2 (k0_pay6 a b la lb s8))
            ∗ owns (c : Thread nD τ) arg8 fullShare (k0_pay6 a b la lb s8) ∗ owns (c : Thread nD τ) arg9 fullShare (k0_pay1 (k0_pay7 a b s9))) -∗ K ⟨⟩))
      ⊢ wp frame (wpE (defs₀ (F := F)) Variants.none c none) E (cc0__infonce_kernel i arg2 harg2 arg3 harg3 arg4 harg4 arg5 harg5 arg6 harg6 arg7 harg7 arg8 harg8 arg9 harg9) K := by
  simp only [cc0__infonce_kernel_eq_skeleton]; unfold cc0__infonce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]
  · iexists _; isplitr; swap; · iexact H6
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact readCov_stored _ _
  isplitl [H7]
  · iexists _; isplitr; swap; · iexact H7
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact congrArg k0_pay2 (readCov_stored _ _)
  isplitl [H8]
  · iexists _; isplitr; swap; · iexact H8
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
  · iexists _; isplitr; swap; · iexact H9
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]

end Cert.Kernel.Hand

end
-- ==== Proof.K.Oblig.lean ====
/-
  The body obligation. At every grid point the body is handed the two scratch buffers (the invariant), what the core
  owes (nothing), and the six windows' current staging buffers: the four inputs' at their blocks, the two outputs' at
  whatever they hold. It hands back the scratch buffers at this point's accumulators, the inputs' buffers as they were,
  and the outputs' buffers untouched — except at a point of the last column block, where they receive the finished
  columns. Which of the three cases a point is in is read off its index modulo 8.
-/
import proofs.«148247_j71236327571460_1_alg».proof.Proof.K.Dat
import proofs.«148247_j71236327571460_1_alg».proof.Proof.K.BodyA
import proofs.«148247_j71236327571460_1_alg».proof.Proof.K.BodyB
import proofs.«148247_j71236327571460_1_alg».proof.Proof.K.BodyC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## Where the windows are idle, and where the outputs are written back -/

theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel
/-- Off the last column block the body stores nothing into either output, and the pipeline does not write them back. -/
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
/-- At the last column block both outputs are stored. -/
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The staging memrefs at a point, as the pipeline passes them -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_first (c : Dev nD) (t : Fin cfg0.N) (h0 : t.val % 8 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hf : condFirst (grid0.coords t) := (hcondFirst t).mpr h0
  have hl : ¬condLast (grid0.coords t) := fun h => by have := (hcondLast t).mp h; omega
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [Dat.leavesExact_idle (dats m 0 c) 4 t (idle4 t hl) (noFlush4 t hl), Dat.leavesExact_idle (dats m 0 c) 5 t (idle5 t hl) (noFlush5 t hl)]
  rw [acc_first m c t h0]
  unfold step zeros; dsimp only
  by_cases hz : t.val = 0
  · rw [Phi_castSucc m c t, PhiS_zero m c _ _ hz]
    iintro ⟨⟨⟨%s8, HS0⟩, ⟨%s9, HS1⟩⟩, Ho, ⟨%d0, H0⟩, ⟨%d1, H1⟩, ⟨%d2, H2⟩, ⟨%d3, H3⟩, ⟨%d4, H4⟩, ⟨%d5, H5⟩⟩
    iapply (runFirst c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
      hf hl (rowsAt m c t) (colsAt m c t) (rowLabsAt m c t) (colLabsAt m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1]
    · isplitl [HS0] <;> iassumption
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [Phi_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩⟩
    iapply (runFirst c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
      hf hl (rowsAt m c t) (colsAt m c t) (rowLabsAt m c t) (colLabsAt m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1]
    · isplitl [HS0] <;> iassumption
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4000000 in
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hf : ¬condFirst (grid0.coords t) := fun h => h0 ((hcondFirst t).mp h)
  have hl : ¬condLast (grid0.coords t) := fun h => h1 ((hcondLast t).mp h)
  have hz : t.val ≠ 0 := fun e => h0 (by rw [e])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [Dat.leavesExact_idle (dats m 0 c) 4 t (idle4 t hl) (noFlush4 t hl), Dat.leavesExact_idle (dats m 0 c) 5 t (idle5 t hl) (noFlush5 t hl)]
  rw [acc_next m c t h0]
  unfold step; dsimp only
  rw [Phi_castSucc m c t, PhiS_pos m c _ _ hz]
  iintro ⟨⟨HS0, HS1⟩, Ho, ⟨%d0, H0⟩, ⟨%d1, H1⟩, ⟨%d2, H2⟩, ⟨%d3, H3⟩, ⟨%d4, H4⟩, ⟨%d5, H5⟩⟩
  iapply (runMid c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
    hf hl (rowsAt m c t) (colsAt m c t) (rowLabsAt m c t) (colLabsAt m c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1]
  · isplitl [HS0] <;> iassumption
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4000000 in
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hf : ¬condFirst (grid0.coords t) := fun h => h0 ((hcondFirst t).mp h)
  have hl : condLast (grid0.coords t) := (hcondLast t).mpr h1
  have hz : t.val ≠ 0 := fun e => h0 (by rw [e])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [show (dats m 0 c).leavesExact 4 t = owns (c : Thread nD τ) (ms4 t) fullShare ((dats m 0 c).after 4 t) from by
    unfold Dat.leavesExact; rw [live4 t hl], after4]
  rw [show (dats m 0 c).leavesExact 5 t = owns (c : Thread nD τ) (ms5 t) fullShare ((dats m 0 c).after 5 t) from by
    unfold Dat.leavesExact; rw [live5 t hl], after5]
  rw [acc_next m c t h0]
  unfold step; dsimp only
  rw [Phi_castSucc m c t, PhiS_pos m c _ _ hz]
  iintro ⟨⟨HS0, HS1⟩, Ho, ⟨%d0, H0⟩, ⟨%d1, H1⟩, ⟨%d2, H2⟩, ⟨%d3, H3⟩, ⟨%d4, H4⟩, ⟨%d5, H5⟩⟩
  iapply (runLast c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
    hf hl (rowsAt m c t) (colsAt m c t) (rowLabsAt m c t) (colLabsAt m c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1]
  · isplitl [HS0] <;> iassumption
  isplitl [Ho]; · iexact Ho
  isplitl [H0]; · iexact H0
  isplitl [H1]; · iexact H1
  isplitl [H2]; · iexact H2
  isplitl [H3]; · iexact H3
  isplitl [H4]; · iexact H4
  iexact H5

/-- The body at any point: the case its index selects. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h1 : t.val % 8 = 7
    · exact sound_last m c t h0 h1
    · exact sound_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.K.Held.lean ====
/-
  Three statements about which buffers a core holds around the kernel's region.

  The kernel's six windows read and write five distinct arrays (two windows read the same array), so the
  separating conjunction over the windows' arrays is a conjunction of five whole-buffer ownerships, not six.
  All of the core's unscoped buffers — what the host operations before and after the region run within — are
  those five together with the twelve buffers that are no window's array. And a whole-buffer ownership at the
  full share is the two ownerships at its left and right half shares, the form in which two readers of one
  array each get a part.
-/
import proofs.«148247_j71236327571460_1_alg».proof.Proof.Gen.Kernel.Launch
import proofs.«148247_j71236327571460_1_alg».proof.Proof.Gen.Kernel.Skeleton
import proofs.«148247_j71236327571460_1_alg».proof.Proof.Gen.Kernel.Points
import Idealize.ShloMosaic.Lib.Pipeline.FrameBody
import Idealize.ShloMosaic.Lib.Pipeline.Value
import Idealize.ShloMosaic.Lib.Pipeline.Regions
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The distinct buffers behind the six windows' arrays are five — the converted features (read through two
    windows), the two label broadcasts and the two results — and holding them all, each whole at the full share
    at contents `V`, is the conjunction of the five ownerships. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3_0) ↦{fullShare} V main_v3_0) ∗ (((c : Thread nD τ).loc main_v3_1) ↦{fullShare} V main_v3_1)) := by
  unfold Pipeline.arrBufs
  exact bigSep_eq_bigSepL_of_eq [main_v0, main_v1, main_v2, main_v3_0, main_v3_1] (by decide) (by decide) _

/-- All the core's unscoped buffers held at a valuation `W`: the five array buffers, then the twelve buffers
    that are no window's array, each whole at the full share at `W`'s contents. -/
theorem held_all_eq (c : Dev nD) (W : Valuation τ sig (Elt F)) :
    (StableHlo.held (c : Thread nD τ) (Pipeline.ucRefs τ sig) W : sProp 𝕄)
      = iprop(((((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1))
          ∗ ((((c : Thread nD τ).loc main_arg0) ↦{fullShare} W main_arg0) ∗ (((c : Thread nD τ).loc main_arg1) ↦{fullShare} W main_arg1) ∗ (((c : Thread nD τ).loc main_cst) ↦{fullShare} W main_cst) ∗ (((c : Thread nD τ).loc main_v4) ↦{fullShare} W main_v4) ∗ (((c : Thread nD τ).loc main_cst_0) ↦{fullShare} W main_cst_0) ∗ (((c : Thread nD τ).loc main_v5) ↦{fullShare} W main_v5) ∗ (((c : Thread nD τ).loc main_cst_1) ↦{fullShare} W main_cst_1) ∗ (((c : Thread nD τ).loc main_v6) ↦{fullShare} W main_v6) ∗ (((c : Thread nD τ).loc main_v7) ↦{fullShare} W main_v7) ∗ (((c : Thread nD τ).loc main_cst_2) ↦{fullShare} W main_cst_2) ∗ (((c : Thread nD τ).loc main_v8) ↦{fullShare} W main_v8) ∗ (((c : Thread nD τ).loc main_v9) ↦{fullShare} W main_v9))) := by
  rw [← Pipeline.unscopedBufs_held c W, Pipeline.unscopedBufs_split₀ cfgs 0 winFacts₀0.arr_unscoped c _, arrBufs_eq,
    Gen.unscopedRest0_eq]

/-- A whole buffer at the full share is the same buffer at the left half share together with it at the right
    half share, at the same contents. -/
theorem pt_halves (c : Dev nD) (b : Ref sig .tc) (f : Buf (Elt F) ((c : Thread nD τ).loc b)) :
    (((c : Thread nD τ).loc b) ↦{fullShare} f : sProp 𝕄)
      ⊣⊢ iprop((((c : Thread nD τ).loc b) ↦{fullShare.left} f) ∗ (((c : Thread nD τ).loc b) ↦{fullShare.right} f)) :=
  pointsTo_share (PosShare.mem_left_op_right fullShare)

end Cert.Kernel.Hand

end
-- ==== Proof.K.Entry.lean ====
/-
  The two ends of the kernel's region, as statements about which buffers a core holds and at what contents.

  Before the region the core holds all its unscoped buffers at what the three host operations left. Five of them
  are behind the six windows (the feature matrix is read through two windows, so its buffer is held half by each);
  the other twelve go round the region untouched. At the entry the five whole buffers become the pipeline's six
  array holdings at their entry contents. At the exit the six holdings, now at their final contents — an input's
  array is never written, a result's array is what the write-backs made of it —, together with the twelve, are
  again all the unscoped buffers, held at the valuation that differs from the entry's only at the two results.
-/
import proofs.«148247_j71236327571460_1_alg».proof.Proof.Gen.Kernel.Launch
import proofs.«148247_j71236327571460_1_alg».proof.Proof.Gen.Kernel.Skeleton
import proofs.«148247_j71236327571460_1_alg».proof.Proof.Gen.Kernel.Points
import proofs.«148247_j71236327571460_1_alg».proof.Proof.K.Dat
import proofs.«148247_j71236327571460_1_alg».proof.Proof.K.Held
import Idealize.ShloMosaic.Lib.Pipeline.FrameBody
import Idealize.ShloMosaic.Lib.Pipeline.Value
import Idealize.ShloMosaic.Lib.Pipeline.Regions
import Idealize.ShloMosaic.Lib.Pipeline.Frame
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ)

/-! ## The six arrays, one by one -/

/-- The six windows' arrays as the core holds them: the feature matrix's buffer at the left half share for the
    row window and at the right half share for the column window, the other four buffers whole at the full share. -/
theorem arrays6 (c : Dev nD) (Fa : (w : Fin cfg0.W) → Buf (Elt F) ((cfg0.win w).arr.view.loc (c : Thread nD τ))) :
    ((dats m 0 c).arrays Fa : sProp 𝕄)
      = iprop((((c : Thread nD τ).loc main_v0) ↦{fullShare.left} Fa 0) ∗ (((c : Thread nD τ).loc main_v0) ↦{fullShare.right} Fa 1) ∗ (((c : Thread nD τ).loc main_v1) ↦{fullShare} Fa 2) ∗ (((c : Thread nD τ).loc main_v2) ↦{fullShare} Fa 3) ∗ (((c : Thread nD τ).loc main_v3_0) ↦{fullShare} Fa 4) ∗ (((c : Thread nD τ).loc main_v3_1) ↦{fullShare} Fa 5)) := by
  have s0 : (cfg0.win 0).arr.view.set = Finset.univ := (Memref.isWhole_whole _).set_eq_univ
  have s2 : (cfg0.win 2).arr.view.set = Finset.univ := (Memref.isWhole_whole _).set_eq_univ
  have s3 : (cfg0.win 3).arr.view.set = Finset.univ := (Memref.isWhole_whole _).set_eq_univ
  have s4 : (cfg0.win 4).arr.view.set = Finset.univ := (Memref.isWhole_whole _).set_eq_univ
  have s5 : (cfg0.win 5).arr.view.set = Finset.univ := (Memref.isWhole_whole _).set_eq_univ
  have q0 : (dats m 0 c).share 0 = fullShare.left := rfl
  have q1 : (dats m 0 c).share 1 = fullShare.right := rfl
  have q2 : (dats m 0 c).share 2 = fullShare := rfl
  have q3 : (dats m 0 c).share 3 = fullShare := rfl
  have q4 : (dats m 0 c).share 4 = fullShare := rfl
  have q5 : (dats m 0 c).share 5 = fullShare := rfl
  unfold Dat.arrays
  -- windows 0 and 1 are on one array: the first rewrite serves both
  rw [Gen.bigSep_W0, s0, s2, s3, s4, s5, q0, q1, q2, q3, q4, q5]

/-! ## The arrays' contents at the two ends -/

/-- When the region is entered every window's array holds what the host operations left in its buffer. -/
theorem arrAt_zero (c : Dev nD) (w : Fin cfg0.W) : (dats m 0 c).arrAt w 0 = V m c (Pipeline.arrRef spec0 w) := rfl

/-- An input window's array is never written: at the region's end it holds what it held at the entry. -/
theorem arrAt_end_in (c : Dev nD) (w : Fin cfg0.W) (hin : (cfg0.win w).isOut = false) :
    (dats m 0 c).arrAt w cfg0.N = V m c (Pipeline.arrRef spec0 w) :=
  ((dats m 0 c).arrAt_in w hin _).trans (A_eq m c w)

theorem arrAt_end0 (c : Dev nD) : (dats m 0 c).arrAt 0 cfg0.N = V m c main_v0 := arrAt_end_in m c 0 rfl
theorem arrAt_end1 (c : Dev nD) : (dats m 0 c).arrAt 1 cfg0.N = V m c main_v0 := arrAt_end_in m c 1 rfl
theorem arrAt_end2 (c : Dev nD) : (dats m 0 c).arrAt 2 cfg0.N = V m c main_v1 := arrAt_end_in m c 2 rfl
theorem arrAt_end3 (c : Dev nD) : (dats m 0 c).arrAt 3 cfg0.N = V m c main_v2 := arrAt_end_in m c 3 rfl

/-! ## The unscoped buffers in two groups -/

/-- The five array buffers, each whole at the full share at `W`'s contents. -/
abbrev arr5 (c : Dev nD) (W : Valuation τ sig (Elt F)) : sProp 𝕄 :=
  iprop((((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1))

/-- The twelve unscoped buffers that are no window's array, each whole at the full share at `W`'s contents: they
    bypass the region. -/
abbrev rest12 (c : Dev nD) (W : Valuation τ sig (Elt F)) : sProp 𝕄 :=
  iprop((((c : Thread nD τ).loc main_arg0) ↦{fullShare} W main_arg0) ∗ (((c : Thread nD τ).loc main_arg1) ↦{fullShare} W main_arg1) ∗ (((c : Thread nD τ).loc main_cst) ↦{fullShare} W main_cst) ∗ (((c : Thread nD τ).loc main_v4) ↦{fullShare} W main_v4) ∗ (((c : Thread nD τ).loc main_cst_0) ↦{fullShare} W main_cst_0) ∗ (((c : Thread nD τ).loc main_v5) ↦{fullShare} W main_v5) ∗ (((c : Thread nD τ).loc main_cst_1) ↦{fullShare} W main_cst_1) ∗ (((c : Thread nD τ).loc main_v6) ↦{fullShare} W main_v6) ∗ (((c : Thread nD τ).loc main_v7) ↦{fullShare} W main_v7) ∗ (((c : Thread nD τ).loc main_cst_2) ↦{fullShare} W main_cst_2) ∗ (((c : Thread nD τ).loc main_v8) ↦{fullShare} W main_v8) ∗ (((c : Thread nD τ).loc main_v9) ↦{fullShare} W main_v9))

/-- The same five buffers as the six windows hold them: the feature matrix's buffer in its two half shares. -/
abbrev arr6 (c : Dev nD) (W : Valuation τ sig (Elt F)) : sProp 𝕄 :=
  iprop((((c : Thread nD τ).loc main_v0) ↦{fullShare.left} W main_v0) ∗ (((c : Thread nD τ).loc main_v0) ↦{fullShare.right} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1))

/-- All the core's unscoped buffers held at `W` are the five array buffers and the twelve others. -/
theorem held_eq (c : Dev nD) (W : Valuation τ sig (Elt F)) :
    (StableHlo.held (c : Thread nD τ) (Pipeline.ucRefs τ sig) W : sProp 𝕄) = iprop(arr5 c W ∗ rest12 c W) :=
  held_all_eq c W

/-- Halving the feature matrix's buffer turns the five whole buffers into the six windows' holdings, and back. -/
theorem arr5_arr6 (c : Dev nD) (W : Valuation τ sig (Elt F)) : (arr5 c W : sProp 𝕄) ⊣⊢ arr6 c W :=
  ⟨by
    iintro ⟨H0, H1, H2, H3, H4⟩
    ihave H := (pt_halves c main_v0 (W main_v0)).1 $$ H0
    icases H with ⟨Hl, Hr⟩
    isplitl [Hl]; · iexact Hl
    isplitl [Hr]; · iexact Hr
    isplitl [H1]; · iexact H1
    isplitl [H2]; · iexact H2
    isplitl [H3]; · iexact H3
    iexact H4,
   by
    iintro ⟨Hl, Hr, H1, H2, H3, H4⟩
    isplitl [Hl Hr]
    · iapply (pt_halves c main_v0 (W main_v0)).2
      isplitl [Hl]; · iexact Hl
      iexact Hr
    isplitl [H1]; · iexact H1
    isplitl [H2]; · iexact H2
    isplitl [H3]; · iexact H3
    iexact H4⟩

/-! ## Entry -/

/-- When the region is entered the six windows' arrays, at their entry contents, are the six holdings at what the
    host operations left. -/
theorem arrays_entry (c : Dev nD) :
    ((dats m 0 c).arrays ((dats m 0 c).arrAt · 0) : sProp 𝕄) = arr6 c (StableHlo.after hostOps0 (V₀ m c)) := by
  rw [arrays6]
  rfl

/-- ENTRY: the unscoped buffers as the host operations left them give the pipeline its six arrays at their entry
    contents, and the twelve other buffers go round the region. -/
theorem entry_split (c : Dev nD) :
    (StableHlo.held (c : Thread nD τ) (Pipeline.ucRefs τ sig) (StableHlo.after hostOps0 (V₀ m c)) : sProp 𝕄)
      ⊢ iprop((dats m 0 c).arrays ((dats m 0 c).arrAt · 0) ∗ rest12 c (StableHlo.after hostOps0 (V₀ m c))) := by
  rw [held_eq, arrays_entry]
  exact sep_mono (arr5_arr6 c _).1 .rfl

/-! ## Exit -/

/-- The valuation the region leaves: what the host operations left, with the two results' buffers at what the
    write-backs made of them. -/
def Vout (c : Dev nD) : Valuation τ sig (Elt F) :=
  Function.update (Function.update (StableHlo.after hostOps0 (V₀ m c)) (Proc.devRef .tc main_v3_0) ((dats m 0 c).arrAt 4 cfg0.N))
    (Proc.devRef .tc main_v3_1) ((dats m 0 c).arrAt 5 cfg0.N)

/-- The first result's buffer holds the first output window's final array; -/
theorem Vout_v3_0 (c : Dev nD) : Vout m c (Proc.devRef .tc main_v3_0) = (dats m 0 c).arrAt 4 cfg0.N := by
  unfold Vout
  rw [Function.update_of_ne (fun h => absurd (Proc.devRef_injective _ h) (by decide)), Function.update_self]

/-- the second result's buffer the second output window's; -/
theorem Vout_v3_1 (c : Dev nD) : Vout m c (Proc.devRef .tc main_v3_1) = (dats m 0 c).arrAt 5 cfg0.N := by
  unfold Vout
  rw [Function.update_self]

/-- and every other TensorCore buffer what the host operations left in it. -/
theorem Vout_of_ne (c : Dev nD) (b : Ref sig .tc) (h0 : b ≠ main_v3_0) (h1 : b ≠ main_v3_1) :
    Vout m c (Proc.devRef .tc b) = (StableHlo.after hostOps0 (V₀ m c)) (Proc.devRef .tc b) := by
  unfold Vout
  rw [Function.update_of_ne (fun h => h1 (Proc.devRef_injective _ h)),
    Function.update_of_ne (fun h => h0 (Proc.devRef_injective _ h))]

/-- The twelve bypassing buffers are no result's buffer: they read the same under the exit valuation. -/
theorem rest12_Vout (c : Dev nD) : (rest12 c (Vout m c) : sProp 𝕄) = rest12 c (StableHlo.after hostOps0 (V₀ m c)) := by
  unfold rest12
  rw [Vout_of_ne m c main_arg0 (by decide) (by decide), Vout_of_ne m c main_arg1 (by decide) (by decide), Vout_of_ne m c main_cst (by decide) (by decide), Vout_of_ne m c main_v4 (by decide) (by decide), Vout_of_ne m c main_cst_0 (by decide) (by decide), Vout_of_ne m c main_v5 (by decide) (by decide), Vout_of_ne m c main_cst_1 (by decide) (by decide), Vout_of_ne m c main_v6 (by decide) (by decide), Vout_of_ne m c main_v7 (by decide) (by decide), Vout_of_ne m c main_cst_2 (by decide) (by decide), Vout_of_ne m c main_v8 (by decide) (by decide), Vout_of_ne m c main_v9 (by decide) (by decide)]

/-- At the region's end the six windows' arrays, at their final contents, are the six holdings at the exit
    valuation: the inputs were never written, the results hold their final arrays. -/
theorem arrays_exit (c : Dev nD) :
    ((dats m 0 c).arrays ((dats m 0 c).arrAt · cfg0.N) : sProp 𝕄) = arr6 c (Vout m c) := by
  rw [arrays6]
  unfold arr6
  rw [Vout_v3_0, Vout_v3_1, Vout_of_ne m c main_v0 (by decide) (by decide), Vout_of_ne m c main_v1 (by decide) (by decide),
    Vout_of_ne m c main_v2 (by decide) (by decide)]
  rw [arrAt_end0, arrAt_end1, arrAt_end2, arrAt_end3]

/-- EXIT: the six arrays at their final contents and the twelve bypassing buffers are all the unscoped buffers held
    at the exit valuation. -/
theorem exit_join (c : Dev nD) :
    iprop((dats m 0 c).arrays ((dats m 0 c).arrAt · cfg0.N) ∗ rest12 c (StableHlo.after hostOps0 (V₀ m c)))
      ⊢ (StableHlo.held (c : Thread nD τ) (Pipeline.ucRefs τ sig) (Vout m c) : sProp 𝕄) := by
  rw [held_eq, arrays_exit, rest12_Vout]
  exact sep_mono (arr5_arr6 c _).2 .rfl

end Cert.Kernel.Hand

end
-- ==== Proof.K.Run.lean ====
/-
  The run of @main. @main is three host operations, the kernel region, ten host operations; it is run as the list of
  those three segments. The host stretches run over all the TensorCore's unscoped buffers, held whole at a valuation:
  the launch contents before the first, the contents after it before the region; the region takes the five array
  buffers out of them — the feature matrix's buffer half to each of the two windows on it — and lets the twelve others
  bypass; at its exit the two output arrays come back at what the pipeline wrote into them and the feature matrix's
  two halves are joined again, so the last stretch runs over all the buffers at the contents the region left. The
  region's invariant is only the two scratch buffers, which the launch hands it at anything. Read against the final
  state: both arguments and the result hold what the last valuation says.
-/
import proofs.«148247_j71236327571460_1_alg».proof.Proof.K.Oblig
import proofs.«148247_j71236327571460_1_alg».proof.Proof.K.Entry

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)

/-- The contents when the region is entered, and after the whole of @main. -/
abbrev Vin (c : Dev nD) : Valuation τ sig (Elt F) := StableHlo.after hostOps0 (V₀ m c)
abbrev Vfin (c : Dev nD) : Valuation τ sig (Elt F) := StableHlo.after hostOps1 (Vout m c)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The three host operations before the region. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) fresh0 (V₀ m) R

/-- The ten host operations after it. -/
def seg2 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) fresh1 (Vout m) R

set_option backward.isDefEq.respectTransparency.types false in
/-- THE REGION. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c)
  post c := iprop(StableHlo.held (c : Thread nD τ) (Pipeline.ucRefs τ sig) (Vout m c) ∗ R c)
  X _ := iprop(emp)
  Y _ := iprop(emp)
  Z c := rest12 c (Vin m c)
  hentry c := by
    rw [Pipeline.ownSems0_none]
    iintro ⟨⟨Hh, HO⟩, -, -⟩
    ihave H := (entry_split m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest0_eq]
    simp only [sc0, sc1, owns_whole]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by rw [show cfg0.N = 64 from N_0]; decide), scopedRest0_eq]
    simp only [sc0, sc1, owns_whole]
    iintro ⟨H0, H1⟩
    isplitr; · iempintro
    isplitr; · iempintro
    isplitl [H0]; · iexists _; iexact H0
    iexists _; iexact H1
  hexit c := by
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) := [.host (seg0 m), .region (reg0 m), .host (seg2 m)]

/-- The physical post: both arguments and the result at what the last valuation says. -/
def QC : PUnit × MemSt nD τ sig (Elt F) → Prop := fun r =>
  ∀ c : Dev nD, r.2.mem ((c : Thread nD τ).loc main_arg0) = Vfin m c (Proc.devRef .tc main_arg0)
    ∧ r.2.mem ((c : Thread nD τ).loc main_arg1) = Vfin m c (Proc.devRef .tc main_arg1)
    ∧ r.2.mem ((c : Thread nD τ).loc main_v9) = Vfin m c (Proc.devRef .tc main_v9)

set_option backward.isDefEq.respectTransparency.types false in
/-- At the compiled mesh, for any float values, from any memory with zero counters: every weakly fair execution of
    @main on the TensorCores terminates, nothing faulting, and every final state has both arguments and the result at
    the last valuation's contents. -/
theorem run_main : θ_run defs (onTc (τ := τ) (main (F := F))) (s₀ m ρ) (QC m) :=
  Pipeline.θ_run_regions_kit (pcfgs (F := F)) adm (dats m) () cellOf_inj emb₁ defs₀ Variants.none L lv m ρ main (segs m)
    (fun c Q => by rw [main_segs adm (dats m) () Variants.none L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_arg0) = Vfin m c (Proc.devRef .tc main_arg0)
      ∧ s.mem ((c : Thread nD τ).loc main_arg1) = Vfin m c (Proc.devRef .tc main_arg1)
      ∧ s.mem ((c : Thread nD τ).loc main_v9) = Vfin m c (Proc.devRef .tc main_v9))
    (hfin := fun c s' => by
      rw [held_all_eq]
      iintro ⟨⟨-, ⟨H0, H1, -, -, -, -, -, -, -, -, -, H9⟩⟩, HSI⟩
      icombine HSI H0 gives %h0
      icombine HSI H1 gives %h1
      icombine HSI H9 gives %h9
      imodintro
      isplitr; · ipureintro; exact ⟨Buf.eq_of_forall_mem_univ h0, Buf.eq_of_forall_mem_univ h1, Buf.eq_of_forall_mem_univ h9⟩
      iexact HSI)
    (hQ := fun _ h => h)

end Cert.Kernel.Hand

end
-- ==== Proof.K.Frame.lean ====
/-
  The frame: both argument arrays end as launched. No host operation writes an argument — the three before the region
  write the converted matrix and the two label layouts, the ten after it write their own scalar results — and the
  region changes only its two output arrays; so the last valuation holds both arguments at their launch contents, which is
  what the run's final state holds.
-/
import proofs.«148247_j71236327571460_1_alg».proof.Proof.K.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A reference none of the first three operations writes. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.binary_writes, StableHlo.nullary_writes, Finset.mem_singleton] <;>
    exact StableHlo.devRef_ne_of_ne ‹_›

/-- A reference none of the last ten operations writes. -/
theorem not_written1 (b : Ref sig .tc) (hb : b ≠ main_cst ∧ b ≠ main_v4 ∧ b ≠ main_cst_0 ∧ b ≠ main_v5 ∧ b ≠ main_cst_1 ∧ b ≠ main_v6 ∧ b ≠ main_v7 ∧ b ≠ main_cst_2 ∧ b ≠ main_v8 ∧ b ≠ main_v9) :
    ∀ op ∈ (hostOps1 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The first argument reaches the end as launched, -/
theorem Vfin_arg0 (c : Dev nD) : Vfin m c (Proc.devRef .tc main_arg0) = m ((c : Thread nD τ).loc main_arg0) :=
  (StableHlo.after_of_forall_not_mem (b := Proc.devRef .tc main_arg0) hostOps1 (Vout m c) (not_written1 main_arg0 (by decide))).trans
    ((Vout_of_ne m c main_arg0 (by decide) (by decide)).trans
      (StableHlo.after_of_forall_not_mem (b := Proc.devRef .tc main_arg0) hostOps0 (V₀ m c) (not_written0 main_arg0 (by decide))))

/-- and the second. -/
theorem Vfin_arg1 (c : Dev nD) : Vfin m c (Proc.devRef .tc main_arg1) = m ((c : Thread nD τ).loc main_arg1) :=
  (StableHlo.after_of_forall_not_mem (b := Proc.devRef .tc main_arg1) hostOps1 (Vout m c) (not_written1 main_arg1 (by decide))).trans
    ((Vout_of_ne m c main_arg1 (by decide) (by decide)).trans
      (StableHlo.after_of_forall_not_mem (b := Proc.devRef .tc main_arg1) hostOps0 (V₀ m c) (not_written0 main_arg1 (by decide))))

/-- THE FRAME: every weakly fair execution of @main terminates, nothing faulting, and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (Vfin_arg0 m c), (h c).2.1.trans (Vfin_arg1 m c)⟩) (run_main m ρ)

end Cert.Kernel.Hand

end
-- ==== Proof.KI.BodyCommon.lean ====
/-
  What the three runs of the kernel body share. The grid is 8 × 8: point t has row-block index t / 8 and column-block
  index t % 8. The body zeroes its two column accumulators when the column-block index is 0, adds this tile's
  contribution to each, and when the column-block index is 7 writes the finished columns out. So a point is in one of
  three cases — first column block, a middle one, the last — decided here in closed form over the grid. Also: what a
  buffer reads as after the body stored a whole column into it once or twice.
-/
import proofs.«148247_j71236327571460_1_alg».proof.Proof.Gen.KernelIdeal.Launch
import proofs.«148247_j71236327571460_1_alg».proof.Proof.Gen.KernelIdeal.Skeleton
import proofs.«148247_j71236327571460_1_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The column-block index is 0: the accumulators are zeroed at this point. -/
abbrev condFirst (i : grid0.Coords) : Prop := (Scalar.cmpi .ne (Scalar.extui (Scalar.cmpi .eq (BitVec.ofNat 32 (i 1).val) 0#32)) 0#32) = 1#1
/-- The column-block index is 7: the finished columns are written out at this point. -/
abbrev condLast (i : grid0.Coords) : Prop := k0_cond2 i = 1#1

theorem hcondFirst : ∀ t : Fin cfg0.N, condFirst (grid0.coords t) ↔ t.val % 8 = 0 :=
  (by decide +kernel : ∀ t : Fin grid0.N, condFirst (grid0.coords t) ↔ t.val % 8 = 0)
theorem hcondLast : ∀ t : Fin cfg0.N, condLast (grid0.coords t) ↔ t.val % 8 = 7 :=
  (by decide +kernel : ∀ t : Fin grid0.N, condLast (grid0.coords t) ↔ t.val % 8 = 7)

/-- The zero offsets of a whole-block access, however spelt. -/
theorem hz2 : (![0, 0] : Fin 2 → Nat) = fun _ => 0 := by funext a; fin_cases a <;> rfl

/-- A buffer into which one whole column was stored reads as that column. -/
theorem read_stored1 (v : View sig .tc .vmem S1024x1 .f32) (f : v.ty.Contents (Elt F)) (w : Vec F S1024x1 .f32) :
    v.read (Elt F) (v.writes (Elt F) f [⟨Rect.unit (s := S1024x1) ![0, 0] S1024x1.size inb_S1024x1_S1024x1_0_0, w⟩]) = w := by
  rw [View.read_writes_eq_canon _ _ _ (fun y => ⟨_, List.mem_singleton_self _, View.mem_set_unit_zero hz2 inb_S1024x1_S1024x1_0_0 y⟩), View.canon_unit_zero hz2]

/-- A buffer into which two whole columns were stored reads as the later one. -/
theorem read_stored2 (v : View sig .tc .vmem S1024x1 .f32) (f : v.ty.Contents (Elt F)) (w w' : Vec F S1024x1 .f32) :
    v.read (Elt F) (v.writes (Elt F) f [⟨Rect.unit (s := S1024x1) ![0, 0] S1024x1.size inb_S1024x1_S1024x1_0_0, w⟩,
      ⟨Rect.unit (s := S1024x1) ![0, 0] S1024x1.size inb_S1024x1_S1024x1_0_0, w'⟩]) = w := by
  rw [View.read_writes_eq_canon _ _ _ (fun y => ⟨_, List.mem_cons_self, View.mem_set_unit_zero hz2 inb_S1024x1_S1024x1_0_0 y⟩), View.canon_cons_unit_zero hz2]

/-- A whole-column load from a buffer into which that whole column was just stored reads the column. -/
theorem readCov_stored (v : View sig .tc .vmem S1024x1 .f32) (w : Vec F S1024x1 .f32) :
    v.readCov [⟨Rect.unit (s := S1024x1) ![0, 0] S1024x1.size inb_S1024x1_S1024x1_0_0, w⟩]
      (Rect.unit (s := S1024x1) ![0, 0] S1024x1.size inb_S1024x1_S1024x1_0_0).toLoadRect = w :=
  View.readCov_unit_zero v hz2 inb_S1024x1_S1024x1_0_0 w

end Cert.KernelIdeal.Hand

end
-- ==== Proof.KI.Dat.lean ====
/-
  The proof data of the one pipeline. When the region is entered the unscoped buffers hold the launch memory after the
  three host operations (the format change of the feature matrix and the two re-layouts of the label vector). Each input
  window's block at a point is read off those contents. The two column accumulators are defined by recursion on the
  point: at a point of the first column block they are this tile's contribution over the zero column, at any other point
  this tile's contribution over what the point before left. After the body the inputs' buffers hold their blocks, the
  first output's buffer the logits' accumulator and the second's the logarithm of the exponentials' accumulator (read by
  the pipeline only at the points that write them back, the last column block of each row block). The invariant between
  points is the two scratch buffers at the accumulators' contents. The feature matrix is read through two windows, so its
  buffer is held half by each.
-/
import proofs.«148247_j71236327571460_1_alg».proof.Proof.KI.BodyCommon
import Idealize.ShloMosaic.Lib.Pipeline.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-- Core `c`'s buffers at launch, as a valuation; -/
abbrev V₀ (c : Dev nD) : Valuation τ sig (Elt F) := fun b => m (c, b)
/-- and when the region is entered, read at a TensorCore reference: the three host operations have run. -/
abbrev V (c : Dev nD) (b : Ref sig .tc) : Buf (Elt F) ((c : Thread nD τ).loc b) := StableHlo.after hostOps0 (V₀ m c) (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The four input blocks at a point, at the body's types: the row block and the column block of the feature matrix,
    the row block's labels as a column, the column block's labels as a row. -/
abbrev rowsAt (c : Dev nD) (t : Fin cfg0.N) : Vec F S1024x1024 .bf16 := iblk m c 0 t
abbrev colsAt (c : Dev nD) (t : Fin cfg0.N) : Vec F S1024x1024 .bf16 := iblk m c 1 t
abbrev rowLabsAt (c : Dev nD) (t : Fin cfg0.N) : Vec F S1024x1 .i32 := iblk m c 2 t
abbrev colLabsAt (c : Dev nD) (t : Fin cfg0.N) : Vec F S1x1024 .i32 := iblk m c 3 t

/-- One point's step of the two accumulators (the exponentials', the logits') from what they held. -/
def step (c : Dev nD) (t : Fin cfg0.N) (s : Vec F S1024x1 .f32 × Vec F S1024x1 .f32) : Vec F S1024x1 .f32 × Vec F S1024x1 .f32 :=
  (k0_pay6 (rowsAt m c t) (colsAt m c t) (rowLabsAt m c t) (colLabsAt m c t) s.1, k0_pay1 (k0_pay7 (rowsAt m c t) (colsAt m c t) s.2))

/-- The zero columns the accumulators restart from at a first column block. -/
def zeros : Vec F S1024x1 .f32 × Vec F S1024x1 .f32 := (k0_pay3, k0_pay4)

/-- THE ACCUMULATION: what the two scratch buffers hold after the body at position `n`. -/
def acc (c : Dev nD) : (n : ℕ) → n < cfg0.N → Vec F S1024x1 .f32 × Vec F S1024x1 .f32
  | 0, hn => step m c ⟨0, hn⟩ zeros
  | n + 1, hn => if (n + 1) % 8 = 0 then step m c ⟨n + 1, hn⟩ zeros else step m c ⟨n + 1, hn⟩ (acc c n (Nat.lt_of_succ_lt hn))

/-- At a point of a first column block the accumulators restart. -/
theorem acc_first (c : Dev nD) (t : Fin cfg0.N) (h : t.val % 8 = 0) : acc m c t.val t.isLt = step m c t zeros := by
  obtain ⟨n, hn⟩ := t
  cases n with
  | zero => rfl
  | succ n => exact if_pos h

/-- At any other point they continue from the point before. -/
theorem acc_next (c : Dev nD) (t : Fin cfg0.N) (h : ¬t.val % 8 = 0) :
    acc m c t.val t.isLt = step m c t (acc m c (t.val - 1) (Nat.lt_of_le_of_lt (Nat.sub_le _ _) t.isLt)) := by
  obtain ⟨n, hn⟩ := t
  cases n with
  | zero => exact absurd (Nat.zero_mod _) h
  | succ n => exact if_neg h

/-- The two scratch operands: whole scoped buffers of the kernel's own. -/
abbrev sc0 : Memref sig .tc .vmem S1024x1 .f32 := Memref.whole cc0_scratch0
abbrev sc1 : Memref sig .tc .vmem S1024x1 .f32 := Memref.whole cc0_scratch1

/-- The invariant before position `n`: before the first point the scratch buffers at anything, afterwards at what the
    point before left. -/
def PhiS (c : Dev nD) : (n : ℕ) → n ≤ cfg0.N → sProp 𝕄
  | 0, _ => iprop((∃ d, owns (c : Thread nD τ) sc0 fullShare d) ∗ (∃ d, owns (c : Thread nD τ) sc1 fullShare d))
  | n + 1, hn => iprop(owns (c : Thread nD τ) sc0 fullShare (acc m c n hn).1 ∗ owns (c : Thread nD τ) sc1 fullShare (acc m c n hn).2)

theorem PhiS_zero (c : Dev nD) (n : ℕ) (h : n ≤ cfg0.N) (hz : n = 0) :
    PhiS m c n h = iprop((∃ d, owns (c : Thread nD τ) sc0 fullShare d) ∗ (∃ d, owns (c : Thread nD τ) sc1 fullShare d)) := by
  subst hz; rfl

theorem PhiS_succ (c : Dev nD) (n : ℕ) (hn : n < cfg0.N) :
    PhiS m c (n + 1) hn = iprop(owns (c : Thread nD τ) sc0 fullShare (acc m c n hn).1 ∗ owns (c : Thread nD τ) sc1 fullShare (acc m c n hn).2) := rfl

theorem PhiS_pos (c : Dev nD) (n : ℕ) (h : n ≤ cfg0.N) (hz : n ≠ 0) :
    PhiS m c n h = iprop(owns (c : Thread nD τ) sc0 fullShare (acc m c (n - 1) (by omega)).1 ∗ owns (c : Thread nD τ) sc1 fullShare (acc m c (n - 1) (by omega)).2) := by
  cases n with
  | zero => exact absurd rfl hz
  | succ n => rfl

/-- The proof data on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => (acc m c t.val t.isLt).2
    | ⟨5, _⟩ => k0_pay2 (acc m c t.val t.isLt).1
  Φ t := PhiS m c t.val (Nat.le_of_lt_succ t.isLt)
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem Phi_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = (acc m c t.val t.isLt).2 := by dsimp only [dats]
theorem after5 (c : Dev nD) (t : Fin cfg0.N) : (dats m 0 c).after 5 t = k0_pay2 (acc m c t.val t.isLt).1 := by dsimp only [dats]

/-- Each input's current staging buffer holds its block at every point, fetched there or not: unfetched, the block index
    has not moved since the fetch. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)

end Cert.KernelIdeal.Hand

end
-- ==== Proof.KI.BodyA.lean ====
/-
  The kernel body at a point of the first column block: both accumulators are zeroed, then take this tile's
  contribution; whatever they held before is overwritten, and the two output buffers are not touched.
-/
import proofs.«148247_j71236327571460_1_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runFirst (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : condFirst i) (hc1 : ¬condLast i)
    (a b : Vec F S1024x1024 .bf16) (la : Vec F S1024x1 .i32) (lb : Vec F S1x1024 .i32) (o6 o7 s8 s9 : Vec F S1024x1 .f32)
    (E : Set ℕ) (K : PUnit → sProp 𝕄) :
    iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare (k0_pay6 a b la lb k0_pay3) ∗ owns (c : Thread nD τ) arg9 fullShare (k0_pay1 (k0_pay7 a b k0_pay4))) -∗ K ⟨⟩))
      ⊢ wp frame (wpE (defs₀ (F := F)) Variants.none c none) E (cc0__infonce_kernel i arg2 harg2 arg3 harg3 arg4 harg4 arg5 harg5 arg6 harg6 arg7 harg7 arg8 harg8 arg9 harg9) K := by
  simp only [cc0__infonce_kernel_eq_skeleton]; unfold cc0__infonce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr; swap; · iexact H8
    ipureintro
    sl_unfold_run_names
    rw [read_stored2]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact congrArg (k0_pay6 a b la lb) (readCov_stored _ _)
  · iexists _; isplitr; swap; · iexact H9
    ipureintro
    sl_unfold_run_names
    rw [read_stored2]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact congrArg (fun s => k0_pay1 (k0_pay7 a b s)) (readCov_stored _ _)

end Cert.KernelIdeal.Hand

end
-- ==== Proof.KI.BodyB.lean ====
/-
  The kernel body at a point whose column block is neither the first nor the last: both accumulators take this
  tile's contribution on top of what they held; the two output buffers are not touched.
-/
import proofs.«148247_j71236327571460_1_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runMid (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : ¬condLast i)
    (a b : Vec F S1024x1024 .bf16) (la : Vec F S1024x1 .i32) (lb : Vec F S1x1024 .i32) (o6 o7 s8 s9 : Vec F S1024x1 .f32)
    (E : Set ℕ) (K : PUnit → sProp 𝕄) :
    iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare (k0_pay6 a b la lb s8) ∗ owns (c : Thread nD τ) arg9 fullShare (k0_pay1 (k0_pay7 a b s9))) -∗ K ⟨⟩))
      ⊢ wp frame (wpE (defs₀ (F := F)) Variants.none c none) E (cc0__infonce_kernel i arg2 harg2 arg3 harg3 arg4 harg4 arg5 harg5 arg6 harg6 arg7 harg7 arg8 harg8 arg9 harg9) K := by
  simp only [cc0__infonce_kernel_eq_skeleton]; unfold cc0__infonce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]; · iexists _; isplitr; · ipureintro; exact harg6.read_unread _
                  iexact H6
  isplitl [H7]; · iexists _; isplitr; · ipureintro; exact harg7.read_unread _
                  iexact H7
  isplitl [H8]
  · iexists _; isplitr; swap; · iexact H8
    ipureintro
    rw [read_stored1]
    simp only [View.readAt_eq_ld, harg2.read_unread, harg3.read_unread, harg4.read_unread, harg5.read_unread, harg8.read_unread,
      View.ld_unit_zero (S := S1024x1024) hz2, View.ld_unit_zero (S := S1024x1) hz2, View.ld_unit_zero (S := S1x1024) hz2]
  · iexists _; isplitr; swap; · iexact H9
    ipureintro
    rw [read_stored1]
    sl_unfold_run_names
    simp only [View.readAt_eq_ld, harg2.read_unread, harg3.read_unread, harg9.read_unread,
      View.ld_unit_zero (S := S1024x1024) hz2, View.ld_unit_zero (S := S1024x1) hz2]

end Cert.KernelIdeal.Hand

end
-- ==== Proof.KI.BodyC.lean ====
/-
  The kernel body at a point of the last column block: both accumulators take this tile's contribution on top of what
  they held, and the finished columns are written out — the first output buffer receives the logits' row sums, the
  second the logarithm of the masked exponentials' row sums.
-/
import proofs.«148247_j71236327571460_1_alg».proof.Proof.KI.BodyCommon

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 2000000 in
theorem runLast (c : Dev nD) (i : grid0.Coords)
    (arg2 : Memref sig .tc .vmem S1024x1024 .bf16) (harg2 : arg2.IsWhole) (arg3 : Memref sig .tc .vmem S1024x1024 .bf16) (harg3 : arg3.IsWhole)
    (arg4 : Memref sig .tc .vmem S1024x1 .i32) (harg4 : arg4.IsWhole) (arg5 : Memref sig .tc .vmem S1x1024 .i32) (harg5 : arg5.IsWhole)
    (arg6 : Memref sig .tc .vmem S1024x1 .f32) (harg6 : arg6.IsWhole) (arg7 : Memref sig .tc .vmem S1024x1 .f32) (harg7 : arg7.IsWhole)
    (arg8 : Memref sig .tc .vmem S1024x1 .f32) (harg8 : arg8.IsWhole) (arg9 : Memref sig .tc .vmem S1024x1 .f32) (harg9 : arg9.IsWhole)
    (hc0 : ¬condFirst i) (hc1 : condLast i)
    (a b : Vec F S1024x1024 .bf16) (la : Vec F S1024x1 .i32) (lb : Vec F S1x1024 .i32) (o6 o7 s8 s9 : Vec F S1024x1 .f32)
    (E : Set ℕ) (K : PUnit → sProp 𝕄) :
    iprop(owns (c : Thread nD τ) arg2 fullShare a ∗ owns (c : Thread nD τ) arg3 fullShare b ∗ owns (c : Thread nD τ) arg4 fullShare la ∗ owns (c : Thread nD τ) arg5 fullShare lb
        ∗ owns (c : Thread nD τ) arg6 fullShare o6 ∗ owns (c : Thread nD τ) arg7 fullShare o7 ∗ owns (c : Thread nD τ) arg8 fullShare s8 ∗ owns (c : Thread nD τ) arg9 fullShare s9
        ∗ (iprop(owns (c : Thread nD τ) arg2 fullShare a ∗ owns (c : Thread nD τ) arg3 fullShare b ∗ owns (c : Thread nD τ) arg4 fullShare la ∗ owns (c : Thread nD τ) arg5 fullShare lb
            ∗ owns (c : Thread nD τ) arg6 fullShare (k0_pay1 (k0_pay7 a b s9)) ∗ owns (c : Thread nD τ) arg7 fullShare (k0_pay2 (k0_pay6 a b la lb s8))
            ∗ owns (c : Thread nD τ) arg8 fullShare (k0_pay6 a b la lb s8) ∗ owns (c : Thread nD τ) arg9 fullShare (k0_pay1 (k0_pay7 a b s9))) -∗ K ⟨⟩))
      ⊢ wp frame (wpE (defs₀ (F := F)) Variants.none c none) E (cc0__infonce_kernel i arg2 harg2 arg3 harg3 arg4 harg4 arg5 harg5 arg6 harg6 arg7 harg7 arg8 harg8 arg9 harg9) K := by
  simp only [cc0__infonce_kernel_eq_skeleton]; unfold cc0__infonce_kernel_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
  obtain rfl := harg2.eq_unread hf2; obtain rfl := harg3.eq_unread hf3; obtain rfl := harg4.eq_unread hf4; obtain rfl := harg5.eq_unread hf5
  obtain rfl := harg6.eq_unread hf6; obtain rfl := harg7.eq_unread hf7; obtain rfl := harg8.eq_unread hf8; obtain rfl := harg9.eq_unread hf9
  sl_exec (disch := first | exact hc0 | exact hc1)
  sl_step
  iapply Hk
  isplitl [H2]; · iexists _; isplitr; · ipureintro; exact harg2.read_unread _
                  iexact H2
  isplitl [H3]; · iexists _; isplitr; · ipureintro; exact harg3.read_unread _
                  iexact H3
  isplitl [H4]; · iexists _; isplitr; · ipureintro; exact harg4.read_unread _
                  iexact H4
  isplitl [H5]; · iexists _; isplitr; · ipureintro; exact harg5.read_unread _
                  iexact H5
  isplitl [H6]
  · iexists _; isplitr; swap; · iexact H6
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact readCov_stored _ _
  isplitl [H7]
  · iexists _; isplitr; swap; · iexact H7
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
    exact congrArg k0_pay2 (readCov_stored _ _)
  isplitl [H8]
  · iexists _; isplitr; swap; · iexact H8
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]
  · iexists _; isplitr; swap; · iexact H9
    ipureintro
    sl_unfold_run_names
    rw [read_stored1]
    simp only [View.readAt_eq_ld, harg2.read_unread, harg3.read_unread, harg4.read_unread, harg5.read_unread, harg8.read_unread, harg9.read_unread,
      View.ld_unit_zero (S := S1024x1024) hz2, View.ld_unit_zero (S := S1024x1) hz2, View.ld_unit_zero (S := S1x1024) hz2]

end Cert.KernelIdeal.Hand

end
-- ==== Proof.KI.Oblig.lean ====
/-
  The body obligation. At every grid point the body is handed the two scratch buffers (the invariant), what the core
  owes (nothing), and the six windows' current staging buffers: the four inputs' at their blocks, the two outputs' at
  whatever they hold. It hands back the scratch buffers at this point's accumulators, the inputs' buffers as they were,
  and the outputs' buffers untouched — except at a point of the last column block, where they receive the finished
  columns. Which of the three cases a point is in is read off its index modulo 8.
-/
import proofs.«148247_j71236327571460_1_alg».proof.Proof.KI.Dat
import proofs.«148247_j71236327571460_1_alg».proof.Proof.KI.BodyA
import proofs.«148247_j71236327571460_1_alg».proof.Proof.KI.BodyB
import proofs.«148247_j71236327571460_1_alg».proof.Proof.KI.BodyC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## Where the windows are idle, and where the outputs are written back -/

theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel
/-- Off the last column block the body stores nothing into either output, and the pipeline does not write them back. -/
theorem idle4 : ∀ t : Fin cfg0.N, ¬condLast (grid0.coords t) → cfg0.idle 4 (grid0.coords t) = true := by decide +kernel
theorem idle5 : ∀ t : Fin cfg0.N, ¬condLast (grid0.coords t) → cfg0.idle 5 (grid0.coords t) = true := by decide +kernel
theorem noFlush4 : ∀ t : Fin cfg0.N, ¬condLast (grid0.coords t) → (cfg0.win 4).flush t = false := by decide +kernel
theorem noFlush5 : ∀ t : Fin cfg0.N, ¬condLast (grid0.coords t) → (cfg0.win 5).flush t = false := by decide +kernel
/-- At the last column block both outputs are stored. -/
theorem live4 : ∀ t : Fin cfg0.N, condLast (grid0.coords t) → cfg0.idle 4 (grid0.coords t) = false := by decide +kernel
theorem live5 : ∀ t : Fin cfg0.N, condLast (grid0.coords t) → cfg0.idle 5 (grid0.coords t) = false := by decide +kernel

/-! ## The staging memrefs at a point, as the pipeline passes them -/

abbrev ms0 (t : Fin cfg0.N) : Memref sig .tc .vmem S1024x1024 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1024x1024 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1024x1 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x1024 .i32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1024x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S1024x1 .f32 := win0_5.stage (cfg0.slots t 5)
abbrev hs5 (t : Fin cfg0.N) : (ms5 t).IsWhole := hstage0_5 ((cfg0.slots t 5).cast nbuf0_5)

/-! ## The obligation at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
theorem sound_first (c : Dev nD) (t : Fin cfg0.N) (h0 : t.val % 8 = 0) :
    bodyPre m c t ⊢ wp frame (wpE (defs₀ (F := F)) Variants.none c none) Set.univ (bodyAt0 t) (fun _ => bodyPost m c t) := by
  have hN : t.val < 64 := lt_of_lt_of_eq t.isLt (show cfg0.N = 64 from N_0)
  have hf : condFirst (grid0.coords t) := (hcondFirst t).mpr h0
  have hl : ¬condLast (grid0.coords t) := fun h => by have := (hcondLast t).mp h; omega
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [Dat.leavesExact_idle (dats m 0 c) 4 t (idle4 t hl) (noFlush4 t hl), Dat.leavesExact_idle (dats m 0 c) 5 t (idle5 t hl) (noFlush5 t hl)]
  rw [acc_first m c t h0]
  unfold step zeros; dsimp only
  by_cases hz : t.val = 0
  · rw [Phi_castSucc m c t, PhiS_zero m c _ _ hz]
    iintro ⟨⟨⟨%s8, HS0⟩, ⟨%s9, HS1⟩⟩, Ho, ⟨%d0, H0⟩, ⟨%d1, H1⟩, ⟨%d2, H2⟩, ⟨%d3, H3⟩, ⟨%d4, H4⟩, ⟨%d5, H5⟩⟩
    iapply (runFirst c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
      hf hl (rowsAt m c t) (colsAt m c t) (rowLabsAt m c t) (colLabsAt m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1]
    · isplitl [HS0] <;> iassumption
    isplitl [Ho]; · iexact Ho
    isplitl [H0]; · iexact H0
    isplitl [H1]; · iexact H1
    isplitl [H2]; · iexact H2
    isplitl [H3]; · iexact H3
    isplitl [H4]; · iexists _; iexact H4
    iexists _; iexact H5
  · rw [Phi_castSucc m c t, PhiS_pos m c _ _ hz]
    iintro ⟨⟨HS0, HS1⟩, Ho, ⟨%d0, H0⟩, ⟨%d1, H1⟩, ⟨%d2, H2⟩, ⟨%d3, H3⟩, ⟨%d4, H4⟩, ⟨%d5, H5⟩⟩
    iapply (runFirst c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
      hf hl (rowsAt m c t) (colsAt m c t) (rowLabsAt m c t) (colLabsAt m c t) _ _ _ _ Set.univ _)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    iintro ⟨H0, H1, H2, H3, H4, H5, HS0, HS1⟩
    isplitl [HS0 HS1]
    · isplitl [HS0] <;> iassumption
    isplitl [Ho]; · iexact Ho
    isplitl [H0]; · iexact H0
    isplitl [H1]; · iexact H1
    isplitl [H2]; · iexact H2
    isplitl [H3]; · iexact H3
    isplitl [H4]; · iexists _; iexact H4
    iexists _; iexact H5

set_option maxHeartbeats 4000000 in
theorem sound_mid (c : Dev nD) (t : Fin cfg0.N) (h0 : ¬t.val % 8 = 0) (h1 : ¬t.val % 8 = 7) :
    bodyPre m c t ⊢ wp frame (wpE (defs₀ (F := F)) Variants.none c none) Set.univ (bodyAt0 t) (fun _ => bodyPost m c t) := by
  have hf : ¬condFirst (grid0.coords t) := fun h => h0 ((hcondFirst t).mp h)
  have hl : ¬condLast (grid0.coords t) := fun h => h1 ((hcondLast t).mp h)
  have hz : t.val ≠ 0 := fun e => h0 (by rw [e])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [Dat.leavesExact_idle (dats m 0 c) 4 t (idle4 t hl) (noFlush4 t hl), Dat.leavesExact_idle (dats m 0 c) 5 t (idle5 t hl) (noFlush5 t hl)]
  rw [acc_next m c t h0]
  unfold step; dsimp only
  rw [Phi_castSucc m c t, PhiS_pos m c _ _ hz]
  iintro ⟨⟨HS0, HS1⟩, Ho, ⟨%d0, H0⟩, ⟨%d1, H1⟩, ⟨%d2, H2⟩, ⟨%d3, H3⟩, ⟨%d4, H4⟩, ⟨%d5, H5⟩⟩
  iapply (runMid c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
    hf hl (rowsAt m c t) (colsAt m c t) (rowLabsAt m c t) (colLabsAt m c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1]
  · isplitl [HS0] <;> iassumption
  isplitl [Ho]; · iexact Ho
  isplitl [H0]; · iexact H0
  isplitl [H1]; · iexact H1
  isplitl [H2]; · iexact H2
  isplitl [H3]; · iexact H3
  isplitl [H4]; · iexists _; iexact H4
  iexists _; iexact H5

set_option maxHeartbeats 4000000 in
theorem sound_last (c : Dev nD) (t : Fin cfg0.N) (h0 : ¬t.val % 8 = 0) (h1 : t.val % 8 = 7) :
    bodyPre m c t ⊢ wp frame (wpE (defs₀ (F := F)) Variants.none c none) Set.univ (bodyAt0 t) (fun _ => bodyPost m c t) := by
  have hf : ¬condFirst (grid0.coords t) := fun h => h0 ((hcondFirst t).mp h)
  have hl : condLast (grid0.coords t) := (hcondLast t).mpr h1
  have hz : t.val ≠ 0 := fun e => h0 (by rw [e])
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [show (dats m 0 c).leavesExact 4 t = owns (c : Thread nD τ) (ms4 t) fullShare ((dats m 0 c).after 4 t) from by
    unfold Dat.leavesExact; rw [live4 t hl], after4]
  rw [show (dats m 0 c).leavesExact 5 t = owns (c : Thread nD τ) (ms5 t) fullShare ((dats m 0 c).after 5 t) from by
    unfold Dat.leavesExact; rw [live5 t hl], after5]
  rw [acc_next m c t h0]
  unfold step; dsimp only
  rw [Phi_castSucc m c t, PhiS_pos m c _ _ hz]
  iintro ⟨⟨HS0, HS1⟩, Ho, ⟨%d0, H0⟩, ⟨%d1, H1⟩, ⟨%d2, H2⟩, ⟨%d3, H3⟩, ⟨%d4, H4⟩, ⟨%d5, H5⟩⟩
  iapply (runLast c (grid0.coords t) (ms0 t) (hs0 t) (ms1 t) (hs1 t) (ms2 t) (hs2 t) (ms3 t) (hs3 t) (ms4 t) (hs4 t) (ms5 t) (hs5 t) sc0 (Memref.isWhole_whole _) sc1 (Memref.isWhole_whole _)
    hf hl (rowsAt m c t) (colsAt m c t) (rowLabsAt m c t) (colLabsAt m c t) _ _ _ _ Set.univ _)
  isplitl [H0]; · iexact H0
  isplitl [H1]; · iexact H1
  isplitl [H2]; · iexact H2
  isplitl [H3]; · iexact H3
  isplitl [H4]; · iexact H4
  isplitl [H5]; · iexact H5
  isplitl [HS0]; · iexact HS0
  isplitl [HS1]; · iexact HS1
  iintro ⟨H0, H1, H2, H3, H4, H5, HS0, HS1⟩
  isplitl [HS0 HS1]
  · isplitl [HS0] <;> iassumption
  isplitl [Ho]; · iexact Ho
  isplitl [H0]; · iexact H0
  isplitl [H1]; · iexact H1
  isplitl [H2]; · iexact H2
  isplitl [H3]; · iexact H3
  isplitl [H4]; · iexact H4
  iexact H5

/-- The body at any point: the case its index selects. -/
theorem sound_body (c : Dev nD) (t : Fin cfg0.N) :
    bodyPre m c t ⊢ wp frame (wpE (defs₀ (F := F)) Variants.none c none) Set.univ (bodyAt0 t) (fun _ => bodyPost m c t) := by
  by_cases h0 : t.val % 8 = 0
  · exact sound_first m c t h0
  · by_cases h1 : t.val % 8 = 7
    · exact sound_last m c t h0 h1
    · exact sound_mid m c t h0 h1

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI.Held.lean ====
/-
  Three statements about which buffers a core holds around the kernel's region.

  The kernel's six windows read and write five distinct arrays (two windows read the same array), so the
  separating conjunction over the windows' arrays is a conjunction of five whole-buffer ownerships, not six.
  All of the core's unscoped buffers — what the host operations before and after the region run within — are
  those five together with the twelve buffers that are no window's array. And a whole-buffer ownership at the
  full share is the two ownerships at its left and right half shares, the form in which two readers of one
  array each get a part.
-/
import proofs.«148247_j71236327571460_1_alg».proof.Proof.Gen.KernelIdeal.Launch
import proofs.«148247_j71236327571460_1_alg».proof.Proof.Gen.KernelIdeal.Skeleton
import proofs.«148247_j71236327571460_1_alg».proof.Proof.Gen.KernelIdeal.Points
import Idealize.ShloMosaic.Lib.Pipeline.FrameBody
import Idealize.ShloMosaic.Lib.Pipeline.Value
import Idealize.ShloMosaic.Lib.Pipeline.Regions
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The distinct buffers behind the six windows' arrays are five — the converted features (read through two
    windows), the two label broadcasts and the two results — and holding them all, each whole at the full share
    at contents `V`, is the conjunction of the five ownerships. -/
theorem arrBufs_eq (c : Dev nD) (V : (b : Ref sig .tc) → Buf (Elt F) ((c : Thread nD τ).loc b)) :
    (Pipeline.arrBufs (Ix := Unit) (Name := ℕ) (U := UR sig nD τ) (Lvl := ℕ) spec0 c V : sProp 𝕄)
      = iprop((((c : Thread nD τ).loc main_v0) ↦{fullShare} V main_v0) ∗ (((c : Thread nD τ).loc main_v1) ↦{fullShare} V main_v1) ∗ (((c : Thread nD τ).loc main_v2) ↦{fullShare} V main_v2) ∗ (((c : Thread nD τ).loc main_v3_0) ↦{fullShare} V main_v3_0) ∗ (((c : Thread nD τ).loc main_v3_1) ↦{fullShare} V main_v3_1)) := by
  unfold Pipeline.arrBufs
  exact bigSep_eq_bigSepL_of_eq [main_v0, main_v1, main_v2, main_v3_0, main_v3_1] (by decide) (by decide) _

/-- All the core's unscoped buffers held at a valuation `W`: the five array buffers, then the twelve buffers
    that are no window's array, each whole at the full share at `W`'s contents. -/
theorem held_all_eq (c : Dev nD) (W : Valuation τ sig (Elt F)) :
    (StableHlo.held (c : Thread nD τ) (Pipeline.ucRefs τ sig) W : sProp 𝕄)
      = iprop(((((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1))
          ∗ ((((c : Thread nD τ).loc main_arg0) ↦{fullShare} W main_arg0) ∗ (((c : Thread nD τ).loc main_arg1) ↦{fullShare} W main_arg1) ∗ (((c : Thread nD τ).loc main_cst) ↦{fullShare} W main_cst) ∗ (((c : Thread nD τ).loc main_v4) ↦{fullShare} W main_v4) ∗ (((c : Thread nD τ).loc main_cst_0) ↦{fullShare} W main_cst_0) ∗ (((c : Thread nD τ).loc main_v5) ↦{fullShare} W main_v5) ∗ (((c : Thread nD τ).loc main_cst_1) ↦{fullShare} W main_cst_1) ∗ (((c : Thread nD τ).loc main_v6) ↦{fullShare} W main_v6) ∗ (((c : Thread nD τ).loc main_v7) ↦{fullShare} W main_v7) ∗ (((c : Thread nD τ).loc main_cst_2) ↦{fullShare} W main_cst_2) ∗ (((c : Thread nD τ).loc main_v8) ↦{fullShare} W main_v8) ∗ (((c : Thread nD τ).loc main_v9) ↦{fullShare} W main_v9))) := by
  rw [← Pipeline.unscopedBufs_held c W, Pipeline.unscopedBufs_split₀ cfgs 0 winFacts₀0.arr_unscoped c _, arrBufs_eq,
    Gen.unscopedRest0_eq]

/-- A whole buffer at the full share is the same buffer at the left half share together with it at the right
    half share, at the same contents. -/
theorem pt_halves (c : Dev nD) (b : Ref sig .tc) (f : Buf (Elt F) ((c : Thread nD τ).loc b)) :
    (((c : Thread nD τ).loc b) ↦{fullShare} f : sProp 𝕄)
      ⊣⊢ iprop((((c : Thread nD τ).loc b) ↦{fullShare.left} f) ∗ (((c : Thread nD τ).loc b) ↦{fullShare.right} f)) :=
  pointsTo_share (PosShare.mem_left_op_right fullShare)

end Cert.KernelIdeal.Hand

end
-- ==== Proof.KI.Entry.lean ====
/-
  The two ends of the kernel's region, as statements about which buffers a core holds and at what contents.

  Before the region the core holds all its unscoped buffers at what the three host operations left. Five of them
  are behind the six windows (the feature matrix is read through two windows, so its buffer is held half by each);
  the other twelve go round the region untouched. At the entry the five whole buffers become the pipeline's six
  array holdings at their entry contents. At the exit the six holdings, now at their final contents — an input's
  array is never written, a result's array is what the write-backs made of it —, together with the twelve, are
  again all the unscoped buffers, held at the valuation that differs from the entry's only at the two results.
-/
import proofs.«148247_j71236327571460_1_alg».proof.Proof.Gen.KernelIdeal.Launch
import proofs.«148247_j71236327571460_1_alg».proof.Proof.Gen.KernelIdeal.Skeleton
import proofs.«148247_j71236327571460_1_alg».proof.Proof.Gen.KernelIdeal.Points
import proofs.«148247_j71236327571460_1_alg».proof.Proof.KI.Dat
import proofs.«148247_j71236327571460_1_alg».proof.Proof.KI.Held
import Idealize.ShloMosaic.Lib.Pipeline.FrameBody
import Idealize.ShloMosaic.Lib.Pipeline.Value
import Idealize.ShloMosaic.Lib.Pipeline.Regions
import Idealize.ShloMosaic.Lib.Pipeline.Frame
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ)

/-! ## The six arrays, one by one -/

/-- The six windows' arrays as the core holds them: the feature matrix's buffer at the left half share for the
    row window and at the right half share for the column window, the other four buffers whole at the full share. -/
theorem arrays6 (c : Dev nD) (Fa : (w : Fin cfg0.W) → Buf (Elt F) ((cfg0.win w).arr.view.loc (c : Thread nD τ))) :
    ((dats m 0 c).arrays Fa : sProp 𝕄)
      = iprop((((c : Thread nD τ).loc main_v0) ↦{fullShare.left} Fa 0) ∗ (((c : Thread nD τ).loc main_v0) ↦{fullShare.right} Fa 1) ∗ (((c : Thread nD τ).loc main_v1) ↦{fullShare} Fa 2) ∗ (((c : Thread nD τ).loc main_v2) ↦{fullShare} Fa 3) ∗ (((c : Thread nD τ).loc main_v3_0) ↦{fullShare} Fa 4) ∗ (((c : Thread nD τ).loc main_v3_1) ↦{fullShare} Fa 5)) := by
  have s0 : (cfg0.win 0).arr.view.set = Finset.univ := (Memref.isWhole_whole _).set_eq_univ
  have s2 : (cfg0.win 2).arr.view.set = Finset.univ := (Memref.isWhole_whole _).set_eq_univ
  have s3 : (cfg0.win 3).arr.view.set = Finset.univ := (Memref.isWhole_whole _).set_eq_univ
  have s4 : (cfg0.win 4).arr.view.set = Finset.univ := (Memref.isWhole_whole _).set_eq_univ
  have s5 : (cfg0.win 5).arr.view.set = Finset.univ := (Memref.isWhole_whole _).set_eq_univ
  have q0 : (dats m 0 c).share 0 = fullShare.left := rfl
  have q1 : (dats m 0 c).share 1 = fullShare.right := rfl
  have q2 : (dats m 0 c).share 2 = fullShare := rfl
  have q3 : (dats m 0 c).share 3 = fullShare := rfl
  have q4 : (dats m 0 c).share 4 = fullShare := rfl
  have q5 : (dats m 0 c).share 5 = fullShare := rfl
  unfold Dat.arrays
  -- windows 0 and 1 are on one array: the first rewrite serves both
  rw [Gen.bigSep_W0, s0, s2, s3, s4, s5, q0, q1, q2, q3, q4, q5]

/-! ## The arrays' contents at the two ends -/

/-- When the region is entered every window's array holds what the host operations left in its buffer. -/
theorem arrAt_zero (c : Dev nD) (w : Fin cfg0.W) : (dats m 0 c).arrAt w 0 = V m c (Pipeline.arrRef spec0 w) := rfl

/-- An input window's array is never written: at the region's end it holds what it held at the entry. -/
theorem arrAt_end_in (c : Dev nD) (w : Fin cfg0.W) (hin : (cfg0.win w).isOut = false) :
    (dats m 0 c).arrAt w cfg0.N = V m c (Pipeline.arrRef spec0 w) :=
  ((dats m 0 c).arrAt_in w hin _).trans (A_eq m c w)

theorem arrAt_end0 (c : Dev nD) : (dats m 0 c).arrAt 0 cfg0.N = V m c main_v0 := arrAt_end_in m c 0 rfl
theorem arrAt_end1 (c : Dev nD) : (dats m 0 c).arrAt 1 cfg0.N = V m c main_v0 := arrAt_end_in m c 1 rfl
theorem arrAt_end2 (c : Dev nD) : (dats m 0 c).arrAt 2 cfg0.N = V m c main_v1 := arrAt_end_in m c 2 rfl
theorem arrAt_end3 (c : Dev nD) : (dats m 0 c).arrAt 3 cfg0.N = V m c main_v2 := arrAt_end_in m c 3 rfl

/-! ## The unscoped buffers in two groups -/

/-- The five array buffers, each whole at the full share at `W`'s contents. -/
abbrev arr5 (c : Dev nD) (W : Valuation τ sig (Elt F)) : sProp 𝕄 :=
  iprop((((c : Thread nD τ).loc main_v0) ↦{fullShare} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1))

/-- The twelve unscoped buffers that are no window's array, each whole at the full share at `W`'s contents: they
    bypass the region. -/
abbrev rest12 (c : Dev nD) (W : Valuation τ sig (Elt F)) : sProp 𝕄 :=
  iprop((((c : Thread nD τ).loc main_arg0) ↦{fullShare} W main_arg0) ∗ (((c : Thread nD τ).loc main_arg1) ↦{fullShare} W main_arg1) ∗ (((c : Thread nD τ).loc main_cst) ↦{fullShare} W main_cst) ∗ (((c : Thread nD τ).loc main_v4) ↦{fullShare} W main_v4) ∗ (((c : Thread nD τ).loc main_cst_0) ↦{fullShare} W main_cst_0) ∗ (((c : Thread nD τ).loc main_v5) ↦{fullShare} W main_v5) ∗ (((c : Thread nD τ).loc main_cst_1) ↦{fullShare} W main_cst_1) ∗ (((c : Thread nD τ).loc main_v6) ↦{fullShare} W main_v6) ∗ (((c : Thread nD τ).loc main_v7) ↦{fullShare} W main_v7) ∗ (((c : Thread nD τ).loc main_cst_2) ↦{fullShare} W main_cst_2) ∗ (((c : Thread nD τ).loc main_v8) ↦{fullShare} W main_v8) ∗ (((c : Thread nD τ).loc main_v9) ↦{fullShare} W main_v9))

/-- The same five buffers as the six windows hold them: the feature matrix's buffer in its two half shares. -/
abbrev arr6 (c : Dev nD) (W : Valuation τ sig (Elt F)) : sProp 𝕄 :=
  iprop((((c : Thread nD τ).loc main_v0) ↦{fullShare.left} W main_v0) ∗ (((c : Thread nD τ).loc main_v0) ↦{fullShare.right} W main_v0) ∗ (((c : Thread nD τ).loc main_v1) ↦{fullShare} W main_v1) ∗ (((c : Thread nD τ).loc main_v2) ↦{fullShare} W main_v2) ∗ (((c : Thread nD τ).loc main_v3_0) ↦{fullShare} W main_v3_0) ∗ (((c : Thread nD τ).loc main_v3_1) ↦{fullShare} W main_v3_1))

/-- All the core's unscoped buffers held at `W` are the five array buffers and the twelve others. -/
theorem held_eq (c : Dev nD) (W : Valuation τ sig (Elt F)) :
    (StableHlo.held (c : Thread nD τ) (Pipeline.ucRefs τ sig) W : sProp 𝕄) = iprop(arr5 c W ∗ rest12 c W) :=
  held_all_eq c W

/-- Halving the feature matrix's buffer turns the five whole buffers into the six windows' holdings, and back. -/
theorem arr5_arr6 (c : Dev nD) (W : Valuation τ sig (Elt F)) : (arr5 c W : sProp 𝕄) ⊣⊢ arr6 c W :=
  ⟨by
    iintro ⟨H0, H1, H2, H3, H4⟩
    ihave H := (pt_halves c main_v0 (W main_v0)).1 $$ H0
    icases H with ⟨Hl, Hr⟩
    isplitl [Hl]; · iexact Hl
    isplitl [Hr]; · iexact Hr
    isplitl [H1]; · iexact H1
    isplitl [H2]; · iexact H2
    isplitl [H3]; · iexact H3
    iexact H4,
   by
    iintro ⟨Hl, Hr, H1, H2, H3, H4⟩
    isplitl [Hl Hr]
    · iapply (pt_halves c main_v0 (W main_v0)).2
      isplitl [Hl]; · iexact Hl
      iexact Hr
    isplitl [H1]; · iexact H1
    isplitl [H2]; · iexact H2
    isplitl [H3]; · iexact H3
    iexact H4⟩

/-! ## Entry -/

/-- When the region is entered the six windows' arrays, at their entry contents, are the six holdings at what the
    host operations left. -/
theorem arrays_entry (c : Dev nD) :
    ((dats m 0 c).arrays ((dats m 0 c).arrAt · 0) : sProp 𝕄) = arr6 c (StableHlo.after hostOps0 (V₀ m c)) := by
  rw [arrays6]
  rfl

/-- ENTRY: the unscoped buffers as the host operations left them give the pipeline its six arrays at their entry
    contents, and the twelve other buffers go round the region. -/
theorem entry_split (c : Dev nD) :
    (StableHlo.held (c : Thread nD τ) (Pipeline.ucRefs τ sig) (StableHlo.after hostOps0 (V₀ m c)) : sProp 𝕄)
      ⊢ iprop((dats m 0 c).arrays ((dats m 0 c).arrAt · 0) ∗ rest12 c (StableHlo.after hostOps0 (V₀ m c))) := by
  rw [held_eq, arrays_entry]
  exact sep_mono (arr5_arr6 c _).1 .rfl

/-! ## Exit -/

/-- The valuation the region leaves: what the host operations left, with the two results' buffers at what the
    write-backs made of them. -/
def Vout (c : Dev nD) : Valuation τ sig (Elt F) :=
  Function.update (Function.update (StableHlo.after hostOps0 (V₀ m c)) (Proc.devRef .tc main_v3_0) ((dats m 0 c).arrAt 4 cfg0.N))
    (Proc.devRef .tc main_v3_1) ((dats m 0 c).arrAt 5 cfg0.N)

/-- The first result's buffer holds the first output window's final array; -/
theorem Vout_v3_0 (c : Dev nD) : Vout m c (Proc.devRef .tc main_v3_0) = (dats m 0 c).arrAt 4 cfg0.N := by
  unfold Vout
  rw [Function.update_of_ne (fun h => absurd (Proc.devRef_injective _ h) (by decide)), Function.update_self]

/-- the second result's buffer the second output window's; -/
theorem Vout_v3_1 (c : Dev nD) : Vout m c (Proc.devRef .tc main_v3_1) = (dats m 0 c).arrAt 5 cfg0.N := by
  unfold Vout
  rw [Function.update_self]

/-- and every other TensorCore buffer what the host operations left in it. -/
theorem Vout_of_ne (c : Dev nD) (b : Ref sig .tc) (h0 : b ≠ main_v3_0) (h1 : b ≠ main_v3_1) :
    Vout m c (Proc.devRef .tc b) = (StableHlo.after hostOps0 (V₀ m c)) (Proc.devRef .tc b) := by
  unfold Vout
  rw [Function.update_of_ne (fun h => h1 (Proc.devRef_injective _ h)),
    Function.update_of_ne (fun h => h0 (Proc.devRef_injective _ h))]

/-- The twelve bypassing buffers are no result's buffer: they read the same under the exit valuation. -/
theorem rest12_Vout (c : Dev nD) : (rest12 c (Vout m c) : sProp 𝕄) = rest12 c (StableHlo.after hostOps0 (V₀ m c)) := by
  unfold rest12
  rw [Vout_of_ne m c main_arg0 (by decide) (by decide), Vout_of_ne m c main_arg1 (by decide) (by decide), Vout_of_ne m c main_cst (by decide) (by decide), Vout_of_ne m c main_v4 (by decide) (by decide), Vout_of_ne m c main_cst_0 (by decide) (by decide), Vout_of_ne m c main_v5 (by decide) (by decide), Vout_of_ne m c main_cst_1 (by decide) (by decide), Vout_of_ne m c main_v6 (by decide) (by decide), Vout_of_ne m c main_v7 (by decide) (by decide), Vout_of_ne m c main_cst_2 (by decide) (by decide), Vout_of_ne m c main_v8 (by decide) (by decide), Vout_of_ne m c main_v9 (by decide) (by decide)]

/-- At the region's end the six windows' arrays, at their final contents, are the six holdings at the exit
    valuation: the inputs were never written, the results hold their final arrays. -/
theorem arrays_exit (c : Dev nD) :
    ((dats m 0 c).arrays ((dats m 0 c).arrAt · cfg0.N) : sProp 𝕄) = arr6 c (Vout m c) := by
  rw [arrays6]
  unfold arr6
  rw [Vout_v3_0, Vout_v3_1, Vout_of_ne m c main_v0 (by decide) (by decide), Vout_of_ne m c main_v1 (by decide) (by decide),
    Vout_of_ne m c main_v2 (by decide) (by decide)]
  rw [arrAt_end0, arrAt_end1, arrAt_end2, arrAt_end3]

/-- EXIT: the six arrays at their final contents and the twelve bypassing buffers are all the unscoped buffers held
    at the exit valuation. -/
theorem exit_join (c : Dev nD) :
    iprop((dats m 0 c).arrays ((dats m 0 c).arrAt · cfg0.N) ∗ rest12 c (StableHlo.after hostOps0 (V₀ m c)))
      ⊢ (StableHlo.held (c : Thread nD τ) (Pipeline.ucRefs τ sig) (Vout m c) : sProp 𝕄) := by
  rw [held_eq, arrays_exit, rest12_Vout]
  exact sep_mono (arr5_arr6 c _).2 .rfl

end Cert.KernelIdeal.Hand

end
-- ==== Proof.KI.Run.lean ====
/-
  The run of @main. @main is three host operations, the kernel region, ten host operations; it is run as the list of
  those three segments. The host stretches run over all the TensorCore's unscoped buffers, held whole at a valuation:
  the launch contents before the first, the contents after it before the region; the region takes the five array
  buffers out of them — the feature matrix's buffer half to each of the two windows on it — and lets the twelve others
  bypass; at its exit the two output arrays come back at what the pipeline wrote into them and the feature matrix's
  two halves are joined again, so the last stretch runs over all the buffers at the contents the region left. The
  region's invariant is only the two scratch buffers, which the launch hands it at anything. Read against the final
  state: both arguments and the result hold what the last valuation says.
-/
import proofs.«148247_j71236327571460_1_alg».proof.Proof.KI.Oblig
import proofs.«148247_j71236327571460_1_alg».proof.Proof.KI.Entry

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- No core owes another anything: no level is assigned. -/
abbrev L : GSem nD τ sig → Finset Unit := fun _ => ∅
abbrev lv : GSem nD τ sig → Unit → ℕ := fun _ _ => 0
/-- No prefetched table. -/
abbrev adm : (p : Fin 1) → (pcfgs (F := F) p).Adm := fun p => (cfgs p).toPCfg_adm
/-- What rides beside the buffers through the host operations: the core's `owes`. -/
abbrev R (c : Dev nD) : sProp 𝕄 := iprop(∃ W, owes (c : Thread nD τ) (0 : CellTallies nD τ sig Unit) W)

/-- The contents when the region is entered, and after the whole of @main. -/
abbrev Vin (c : Dev nD) : Valuation τ sig (Elt F) := StableHlo.after hostOps0 (V₀ m c)
abbrev Vfin (c : Dev nD) : Valuation τ sig (Elt F) := StableHlo.after hostOps1 (Vout m c)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h

/-- The three host operations before the region. -/
def seg0 : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) fresh0 (V₀ m) R

/-- The ten host operations after it. -/
def seg2 : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) fresh1 (Vout m) R

set_option backward.isDefEq.respectTransparency.types false in
/-- THE REGION. -/
def reg0 : Pipeline.RegionSeg (pcfgs (F := F)) adm (dats m) () defs₀ Variants.none L lv 0 where
  win := winFacts₀0
  block_pos := block_pos0
  stage_whole := stage_whole0
  K := PEmpty
  osem k := k.elim
  ho := Pipeline.OwnSemFacts.none _
  hbody c := (body_obligation m c).loose
  hwaits := Pipeline.hwaits_of_owed_zero _ _ _ _ L lv 0 fun _ _ => rfl
  pre c := iprop(StableHlo.held (c : Thread nD τ) (Pipeline.ucRefs τ sig) (Vin m c) ∗ R c)
  post c := iprop(StableHlo.held (c : Thread nD τ) (Pipeline.ucRefs τ sig) (Vout m c) ∗ R c)
  X _ := iprop(emp)
  Y _ := iprop(emp)
  Z c := rest12 c (Vin m c)
  hentry c := by
    rw [Pipeline.ownSems0_none]
    iintro ⟨⟨Hh, HO⟩, -, -⟩
    ihave H := (entry_split m c) $$ Hh
    icases H with ⟨Ha, Hr⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hr
  hin c := by
    rw [show (dats m 0 c).Φ 0 = PhiS m c 0 (Nat.zero_le _) from rfl, PhiS_zero m c 0 _ rfl, scopedRest0_eq]
    simp only [sc0, sc1, owns_whole]
    iintro ⟨-, -, Hr⟩; iexact Hr
  hout c := by
    rw [Pipeline.ownSems0_none, show (dats m 0 c).Φ (Fin.last cfg0.N) = PhiS m c cfg0.N (Nat.le_refl _) from rfl,
      PhiS_pos m c _ _ (by rw [show cfg0.N = 64 from N_0]; decide), scopedRest0_eq]
    simp only [sc0, sc1, owns_whole]
    iintro ⟨H0, H1⟩
    isplitr; · iempintro
    isplitr; · iempintro
    isplitl [H0]; · iexists _; iexact H0
    iexists _; iexact H1
  hexit c := by
    iintro ⟨Ha, HO, -, HZ⟩
    imodintro
    isplitr [HO]
    · iapply (exit_join m c)
      isplitl [Ha] <;> iassumption
    · unfold Pipeline.Dat.owesAt Pipeline.owesWithin
      icases HO with ⟨%W, -, HO⟩; iexists W; iexact HO

/-- @main as the list of the three. -/
abbrev segs : List (Pipeline.Seg (pcfgs (F := F)) adm (dats m) () defs₀ Variants.none L lv) := [.host (seg0 m), .region (reg0 m), .host (seg2 m)]

/-- The physical post: both arguments and the result at what the last valuation says. -/
def QC : PUnit × MemSt nD τ sig (Elt F) → Prop := fun r =>
  ∀ c : Dev nD, r.2.mem ((c : Thread nD τ).loc main_arg0) = Vfin m c (Proc.devRef .tc main_arg0)
    ∧ r.2.mem ((c : Thread nD τ).loc main_arg1) = Vfin m c (Proc.devRef .tc main_arg1)
    ∧ r.2.mem ((c : Thread nD τ).loc main_v9) = Vfin m c (Proc.devRef .tc main_v9)

set_option backward.isDefEq.respectTransparency.types false in
/-- At the compiled mesh, for any float values, from any memory with zero counters: every weakly fair execution of
    @main on the TensorCores terminates, nothing faulting, and every final state has both arguments and the result at
    the last valuation's contents. -/
theorem run_main : θ_run defs (onTc (τ := τ) (main (F := F))) (s₀ m ρ) (QC m) :=
  Pipeline.θ_run_regions_kit (pcfgs (F := F)) adm (dats m) () cellOf_inj emb₁ defs₀ Variants.none L lv m ρ main (segs m)
    (fun c Q => by rw [main_segs adm (dats m) () Variants.none L lv (seg0 m) (seg2 m) (reg0 m) rfl rfl c])
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V₀ m c) ∗ R c))
    (Tₙ := fun c => StableHlo.held (c : Thread nD τ) (Pipeline.ucRefs τ sig) (Vfin m c))
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (V₀ m c) from Pipeline.unscopedBufs_held c (V₀ m c)]
      iintro ⟨⟨Hh, -, HO, -, -, -⟩, -⟩
      imodintro
      isplitl [Hh]; · iexact Hh
      iexists ∅; iexact HO)
    (QY := fun c s => s.mem ((c : Thread nD τ).loc main_arg0) = Vfin m c (Proc.devRef .tc main_arg0)
      ∧ s.mem ((c : Thread nD τ).loc main_arg1) = Vfin m c (Proc.devRef .tc main_arg1)
      ∧ s.mem ((c : Thread nD τ).loc main_v9) = Vfin m c (Proc.devRef .tc main_v9))
    (hfin := fun c s' => by
      rw [held_all_eq]
      iintro ⟨⟨-, ⟨H0, H1, -, -, -, -, -, -, -, -, -, H9⟩⟩, HSI⟩
      icombine HSI H0 gives %h0
      icombine HSI H1 gives %h1
      icombine HSI H9 gives %h9
      imodintro
      isplitr; · ipureintro; exact ⟨Buf.eq_of_forall_mem_univ h0, Buf.eq_of_forall_mem_univ h1, Buf.eq_of_forall_mem_univ h9⟩
      iexact HSI)
    (hQ := fun _ h => h)

end Cert.KernelIdeal.Hand

end
-- ==== Proof.KI.Frame.lean ====
/-
  The frame: both argument arrays end as launched. No host operation writes an argument — the three before the region
  write the converted matrix and the two label layouts, the ten after it write their own scalar results — and the
  region changes only its two output arrays; so the last valuation holds both arguments at their launch contents, which is
  what the run's final state holds.
-/
import proofs.«148247_j71236327571460_1_alg».proof.Proof.KI.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A reference none of the first three operations writes. -/
theorem not_written0 (b : Ref sig .tc) (hb : b ≠ main_v0 ∧ b ≠ main_v1 ∧ b ≠ main_v2) :
    ∀ op ∈ (hostOps0 (F := F)), Proc.devRef .tc b ∉ op.writes := by
  obtain ⟨h0, h1, h2⟩ := hb
  intro op hop
  simp only [List.mem_cons, List.mem_nil_iff, or_false] at hop
  rcases hop with rfl | rfl | rfl <;>
    simp only [StableHlo.unary_writes, StableHlo.binary_writes, StableHlo.nullary_writes, Finset.mem_singleton] <;>
    exact StableHlo.devRef_ne_of_ne ‹_›

/-- A reference none of the last ten operations writes. -/
theorem not_written1 (b : Ref sig .tc) (hb : b ≠ main_cst ∧ b ≠ main_v4 ∧ b ≠ main_cst_0 ∧ b ≠ main_v5 ∧ b ≠ main_cst_1 ∧ b ≠ main_v6 ∧ b ≠ main_v7 ∧ b ≠ main_cst_2 ∧ b ≠ main_v8 ∧ b ≠ main_v9) :
    ∀ op ∈ (hostOps1 (F := F)), Proc.devRef .tc b ∉ op.writes := by
  obtain ⟨h0, h1, h2, h3, h4, h5, h6, h7, h8, h9⟩ := hb
  intro op hop
  simp only [List.mem_cons, List.mem_nil_iff, or_false] at hop
  rcases hop with rfl | rfl | rfl | rfl | rfl | rfl | rfl | rfl | rfl | rfl <;>
    simp only [StableHlo.unary_writes, StableHlo.binary_writes, StableHlo.nullary_writes, Finset.mem_singleton] <;>
    exact StableHlo.devRef_ne_of_ne ‹_›

/-- The first argument reaches the end as launched, -/
theorem Vfin_arg0 (c : Dev nD) : Vfin m c (Proc.devRef .tc main_arg0) = m ((c : Thread nD τ).loc main_arg0) :=
  (StableHlo.after_of_forall_not_mem (b := Proc.devRef .tc main_arg0) hostOps1 (Vout m c) (not_written1 main_arg0 (by decide))).trans
    ((Vout_of_ne m c main_arg0 (by decide) (by decide)).trans
      (StableHlo.after_of_forall_not_mem (b := Proc.devRef .tc main_arg0) hostOps0 (V₀ m c) (not_written0 main_arg0 (by decide))))

/-- and the second. -/
theorem Vfin_arg1 (c : Dev nD) : Vfin m c (Proc.devRef .tc main_arg1) = m ((c : Thread nD τ).loc main_arg1) :=
  (StableHlo.after_of_forall_not_mem (b := Proc.devRef .tc main_arg1) hostOps1 (Vout m c) (not_written1 main_arg1 (by decide))).trans
    ((Vout_of_ne m c main_arg1 (by decide) (by decide)).trans
      (StableHlo.after_of_forall_not_mem (b := Proc.devRef .tc main_arg1) hostOps0 (V₀ m c) (not_written0 main_arg1 (by decide))))

/-- THE FRAME: every weakly fair execution of @main terminates, nothing faulting, and both arguments end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (Vfin_arg0 m c), (h c).2.1.trans (Vfin_arg1 m c)⟩) (run_main m ρ)

end Cert.KernelIdeal.Hand

end
-- ==== Proof.Spec.lean ====
/-
  The mathematics both programs compute, stated once over the argument arrays and with no program in sight.

  For a feature matrix `x` (8192 rows of 1024 extended reals) and a label vector `lab` (8192 words):
  the logit of the pair (i, k) is the inner product of rows i and k times the reciprocal temperature; row i's
  denominator is the sum over k of exp(logit i k) over the k carrying row i's label; the loss is
  minus the mean of all logits plus the mean over rows of the logarithm of the row's denominator.
  The reciprocal temperature is the exact rational 268435456/13421773 — the reciprocal of the number the
  binary word for the temperature 0.05 encodes, 13421773/268435456.
-/
import Idealize.ShloMosaic.PureOps.Ideal
import Idealize.ShloMosaic.Lib.ValueIdx

noncomputable section

open scoped BigOperators

namespace Cert.Contrastive

open Idealize.ShloMosaic Idealize.ShloMosaic.ValueIdx

/-- The shape of the feature matrix and of the label vector. -/
abbrev SFeat : Shape := ⟨2, ![8192, 1024]⟩
abbrev SLab : Shape := ⟨1, ![8192]⟩

/-- The reciprocal of the temperature's binary word, an exact rational. -/
def invTemp : EReal := ((268435456 / 13421773 : ℝ) : EReal)

/-- The inner product of rows `i` and `k`. -/
def inner (x : SFeat.Idx → EReal) (i k : Fin 8192) : EReal := ∑ d : Fin 1024, x (ix2 i d) * x (ix2 k d)

/-- The logit of the pair: the inner product scaled by the reciprocal temperature. -/
def logit (x : SFeat.Idx → EReal) (i k : Fin 8192) : EReal := inner x i k * invTemp

/-- The indicator that rows `i` and `k` carry one label. -/
def same (lab : SLab.Idx → BitVec 32) (i k : Fin 8192) : EReal := if lab (ix1 i) = lab (ix1 k) then 1 else 0

/-- Row `i`'s sum of logits. -/
def rowLogits (x : SFeat.Idx → EReal) (i : Fin 8192) : EReal := ∑ k : Fin 8192, logit x i k

/-- Row `i`'s denominator: the exponentials of its logits summed over the rows with its label. -/
def denom (x : SFeat.Idx → EReal) (lab : SLab.Idx → BitVec 32) (i : Fin 8192) : EReal :=
  ∑ k : Fin 8192, Ideal.exp (logit x i k) * same lab i k

/-- The loss: minus the mean logit plus the mean log-denominator (8192² = 67108864 pairs, 8192 rows). -/
def loss (x : SFeat.Idx → EReal) (lab : SLab.Idx → BitVec 32) : EReal :=
  -(Ideal.div (∑ i : Fin 8192, rowLogits x i) ((67108864 : ℝ) : EReal))
    + Ideal.div (∑ i : Fin 8192, Ideal.log (denom x lab i)) ((8192 : ℝ) : EReal)

end Cert.Contrastive

end
-- ==== Proof.Blocks.lean ====
/-
  The blocks of the feature matrix and of the label vector that one grid point reads, and the two
  column accumulators a row block carries over its eight column blocks.

  Row block `i` of the feature matrix is rows `i * 1024 … i * 1024 + 1023`; the label vector is read once
  as a column (the labels of the row block's rows) and once as a row (the labels of the column block's rows).
  A change of float format is the identity on extended reals, so the sixteen-bit block of the converted
  matrix is the block of the matrix itself.
-/
import proofs.«148247_j71236327571460_1_alg».proof.Proof.Spec
import proofs.«148247_j71236327571460_1_alg».proof.Proof.Gen.KernelIdeal.Skeleton

noncomputable section

namespace Cert.Contrastive

open Idealize.ShloMosaic Idealize.ShloMosaic.ValueIdx Cert.KernelIdeal Cert.KernelIdeal.Gen

/-- Row block `i` of the feature matrix: at `(p, d)` the matrix at `(i * 1024 + p, d)`. -/
def featBlock (x : SFeat.Idx → EReal) (i : Fin 8) : Vec Ideal S1024x1024 .bf16 :=
  fun y => x (ix2 (⟨i.val * 1024 + (y 0).val, by have := idx2_lt0 y; have := i.isLt; omega⟩ : Fin 8192)
    (⟨(y 1).val, idx2_lt1 y⟩ : Fin 1024))

/-- The labels of row block `i`'s rows, as a column: at `(p, 0)` the label of row `i * 1024 + p`. -/
def labRows (lab : SLab.Idx → BitVec 32) (i : Fin 8) : Vec Ideal S1024x1 .i32 :=
  fun y => lab (ix1 (⟨i.val * 1024 + (y 0).val, by have := idx2_lt0 y; have := i.isLt; omega⟩ : Fin 8192))

/-- The labels of column block `j`'s rows, as a row: at `(0, q)` the label of row `j * 1024 + q`. -/
def labCols (lab : SLab.Idx → BitVec 32) (j : Fin 8) : Vec Ideal S1x1024 .i32 :=
  fun y => lab (ix1 (⟨j.val * 1024 + (y 1).val, by have := idx2_lt1 y; have := j.isLt; omega⟩ : Fin 8192))

/-- Row block `i`'s denominator accumulator after column blocks `0 … n`: it starts from the zero column and
    each column block adds its masked exponentials' lane sums. -/
def denAcc (x : SFeat.Idx → EReal) (lab : SLab.Idx → BitVec 32) (i : Fin 8) : Nat → FVec Ideal S1024x1 .f32
  | 0 => k0_pay6 (F := Ideal) (featBlock x i) (featBlock x 0) (labRows lab i) (labCols lab 0) (k0_pay3 (F := Ideal))
  | n + 1 => k0_pay6 (F := Ideal) (featBlock x i) (featBlock x ⟨(n + 1) % 8, Nat.mod_lt _ (by decide)⟩) (labRows lab i)
      (labCols lab ⟨(n + 1) % 8, Nat.mod_lt _ (by decide)⟩) (denAcc x lab i n)

/-- Row block `i`'s logit accumulator after column blocks `0 … n`: it starts from the zero column and each
    column block adds its logits' lane sums. -/
def logAcc (x : SFeat.Idx → EReal) (i : Fin 8) : Nat → FVec Ideal S1024x1 .f32
  | 0 => k0_pay1 (F := Ideal) (k0_pay7 (F := Ideal) (featBlock x i) (featBlock x 0) (k0_pay4 (F := Ideal)))
  | n + 1 => k0_pay1 (F := Ideal) (k0_pay7 (F := Ideal) (featBlock x i) (featBlock x ⟨(n + 1) % 8, Nat.mod_lt _ (by decide)⟩)
      (logAcc x i n))

theorem denAcc_zero (x : SFeat.Idx → EReal) (lab : SLab.Idx → BitVec 32) (i : Fin 8) :
    denAcc x lab i 0
      = k0_pay6 (F := Ideal) (featBlock x i) (featBlock x 0) (labRows lab i) (labCols lab 0) (k0_pay3 (F := Ideal)) := rfl

theorem denAcc_succ (x : SFeat.Idx → EReal) (lab : SLab.Idx → BitVec 32) (i : Fin 8) (n : Nat) :
    denAcc x lab i (n + 1)
      = k0_pay6 (F := Ideal) (featBlock x i) (featBlock x ⟨(n + 1) % 8, Nat.mod_lt _ (by decide)⟩) (labRows lab i)
          (labCols lab ⟨(n + 1) % 8, Nat.mod_lt _ (by decide)⟩) (denAcc x lab i n) := rfl

theorem logAcc_zero (x : SFeat.Idx → EReal) (i : Fin 8) :
    logAcc x i 0 = k0_pay1 (F := Ideal) (k0_pay7 (F := Ideal) (featBlock x i) (featBlock x 0) (k0_pay4 (F := Ideal))) := rfl

theorem logAcc_succ (x : SFeat.Idx → EReal) (i : Fin 8) (n : Nat) :
    logAcc x i (n + 1)
      = k0_pay1 (F := Ideal) (k0_pay7 (F := Ideal) (featBlock x i) (featBlock x ⟨(n + 1) % 8, Nat.mod_lt _ (by decide)⟩)
          (logAcc x i n)) := rfl

/-- The blocks read at coordinates. -/
theorem featBlock_apply (x : SFeat.Idx → EReal) (i : Fin 8) (p d : Fin 1024) :
    featBlock x i (ix2 p d) = x (ix2 (⟨i.val * 1024 + p.val, by have := i.isLt; omega⟩ : Fin 8192) d) := rfl

theorem labRows_apply (lab : SLab.Idx → BitVec 32) (i : Fin 8) (p : Fin 1024) (u : Fin 1) :
    labRows lab i (ix2 p u) = lab (ix1 (⟨i.val * 1024 + p.val, by have := i.isLt; omega⟩ : Fin 8192)) := rfl

theorem labCols_apply (lab : SLab.Idx → BitVec 32) (j : Fin 8) (u : Fin 1) (q : Fin 1024) :
    labCols lab j (ix2 u q) = lab (ix1 (⟨j.val * 1024 + q.val, by have := j.isLt; omega⟩ : Fin 8192)) := rfl

end Cert.Contrastive

end
-- ==== Proof.PayloadAt.lean ====
/-
  Each payload of the kernel body read at an index, over explicit coordinates, at the extended reals.

  The matrix product into a zero accumulator is, at `(p, q)`, the sum over the contracted coordinate of the
  products; the transposed right operand turns it into the inner product of row `p` of the left block and row
  `q` of the right block; the named scale is the reciprocal temperature. The lane sums are sums over the
  column coordinate, and the label mask is the indicator that the row's label is the column's.
-/
import proofs.«148247_j71236327571460_1_alg».proof.Proof.Spec
import proofs.«148247_j71236327571460_1_alg».proof.Proof.Gen.KernelIdeal.Skeleton
import Idealize.ShloMosaic.Lib.ValueLayout
import Idealize.ShloMosaic.PureOps.Ideal.Laws

noncomputable section

open scoped BigOperators

namespace Cert.Contrastive

open Idealize.ShloMosaic Idealize.ShloMosaic.ValueIdx Cert.KernelIdeal Cert.KernelIdeal.Gen

/-- The kernel's named scale denotes the reciprocal temperature. -/
theorem scale_eq :
    Named.named (F := Ideal) Cert.KernelIdeal.κ "inv_temperature" (φ := .f32) 0x41A00000#32 = invTemp :=
  IdealRules.named_const.ideal_named_scalar _ _ _ _ rfl

/-! ## The matrix product at an index -/

theorem dot_lhs_0 (i : S1024x1024.Idx) (k : dot_S1024x1024_S1024x1024_S1024x1024_1_0_0_1_n_n.contr.Idx) :
    (dot_S1024x1024_S1024x1024_S1024x1024_1_0_0_1_n_n.lhsIdx i k 0).val = (i 0).val := by
  unfold DotDims.lhsIdx
  rw [dif_neg (show ¬(0 : Fin S1024x1024.rank) ∈ dot_S1024x1024_S1024x1024_S1024x1024_1_0_0_1_n_n.lhsBatch by decide),
    dif_pos (show (0 : Fin S1024x1024.rank) ∈ dot_S1024x1024_S1024x1024_S1024x1024_1_0_0_1_n_n.lhsNonContracting by decide)]
  rfl

theorem dot_lhs_1 (i : S1024x1024.Idx) (k : dot_S1024x1024_S1024x1024_S1024x1024_1_0_0_1_n_n.contr.Idx) :
    (dot_S1024x1024_S1024x1024_S1024x1024_1_0_0_1_n_n.lhsIdx i k 1).val = (k ⟨0, by decide⟩).val :=
  dot_S1024x1024_S1024x1024_S1024x1024_1_0_0_1_n_n.lhsIdx_val_of_single rfl i k

theorem dot_rhs_0 (i : S1024x1024.Idx) (k : dot_S1024x1024_S1024x1024_S1024x1024_1_0_0_1_n_n.contr.Idx) :
    (dot_S1024x1024_S1024x1024_S1024x1024_1_0_0_1_n_n.rhsIdx i k 0).val = (k ⟨0, by decide⟩).val :=
  dot_S1024x1024_S1024x1024_S1024x1024_1_0_0_1_n_n.rhsIdx_val_of_single rfl i k

theorem dot_rhs_1 (i : S1024x1024.Idx) (k : dot_S1024x1024_S1024x1024_S1024x1024_1_0_0_1_n_n.contr.Idx) :
    (dot_S1024x1024_S1024x1024_S1024x1024_1_0_0_1_n_n.rhsIdx i k 1).val = (i 1).val := by
  unfold DotDims.rhsIdx
  rw [dif_neg (show ¬(1 : Fin S1024x1024.rank) ∈ dot_S1024x1024_S1024x1024_S1024x1024_1_0_0_1_n_n.rhsBatch by decide),
    dif_pos (show (1 : Fin S1024x1024.rank) ∈ dot_S1024x1024_S1024x1024_S1024x1024_1_0_0_1_n_n.rhsNonContracting by decide)]
  rfl

/-- The product of two 1024 × 1024 blocks into the zero accumulator, at `(p, q)`: the sum over the contracted
    coordinate `d` of left `(p, d)` times right `(d, q)`. -/
theorem matmul_at (l r : FVec Ideal S1024x1024 .bf16) (p q : Fin 1024) :
    matmul (F := Ideal) dot_S1024x1024_S1024x1024_S1024x1024_1_0_0_1_n_n none l r (constant S1024x1024 .f32 0x00000000#32) (ix2 p q)
      = ∑ d : Fin 1024, l (ix2 p d) * r (ix2 d q) := by
  simp only [matmul]
  rw [Ideal.matmul_constant_zero_apply,
    ← Equiv.sum_comp (contrEquiv1 dot_S1024x1024_S1024x1024_S1024x1024_1_0_0_1_n_n 1024 rfl rfl).symm]
  refine Finset.sum_congr rfl fun k _ => ?_
  have hk := contrEquiv1_symm_val dot_S1024x1024_S1024x1024_S1024x1024_1_0_0_1_n_n 1024 rfl rfl k
  have el : dot_S1024x1024_S1024x1024_S1024x1024_1_0_0_1_n_n.lhsIdx (ix2 p q) ((contrEquiv1 dot_S1024x1024_S1024x1024_S1024x1024_1_0_0_1_n_n 1024 rfl rfl).symm k) = ix2 p k :=
    funext fun a => Fin.ext (by
      match a with
      | ⟨0, _⟩ => exact dot_lhs_0 _ _
      | ⟨1, _⟩ => exact (dot_lhs_1 _ _).trans hk)
  have er : dot_S1024x1024_S1024x1024_S1024x1024_1_0_0_1_n_n.rhsIdx (ix2 p q) ((contrEquiv1 dot_S1024x1024_S1024x1024_S1024x1024_1_0_0_1_n_n 1024 rfl rfl).symm k) = ix2 k q :=
    funext fun a => Fin.ext (by
      match a with
      | ⟨0, _⟩ => exact (dot_rhs_0 _ _).trans hk
      | ⟨1, _⟩ => exact dot_rhs_1 _ _)
  rw [el, er]

/-- The scaled logits' block at `(p, q)`: the inner product of row `p` of the left block and row `q` of the
    right block, times the reciprocal temperature. -/
theorem pay5_apply (a b : Vec Ideal S1024x1024 .bf16) (p q : Fin 1024) :
    k0_pay5 (F := Ideal) a b (ix2 p q) = (∑ d : Fin 1024, a (ix2 p d) * b (ix2 q d)) * invTemp := by
  unfold k0_pay5
  simp only [shapeCast_self]
  rw [mulf_apply, broadcast_apply, scale_eq, matmul_at]
  refine congrArg (· * invTemp) (Finset.sum_congr rfl fun d _ => ?_)
  rw [transpose_ix2_apply]

/-! ## The layout operations of the body at an index -/

/-- A vector made a column, `[1024]` cast to `[1024, 1]`, reads at `(p, u)` the vector at `p`. -/
theorem shapeCast_col_apply {α : Type} (v : S1024.Idx → α) (h : S1024.ShapeCasts S1024x1) (p : Fin 1024) (u : Fin 1) :
    shapeCast S1024x1 v h (ix2 p u) = v (ix1 p) :=
  shapeCast_apply v h _ _ (by
    have hu : u.val = 0 := by omega
    rw [Shape.rowMajor_val_one, Shape.rowMajor_val_two]
    show p.val = p.val * 1 + u.val
    rw [hu, Nat.mul_one, Nat.add_zero])

/-- A column broadcast along the lanes, `[1024, 1]` to `[1024, 1024]`, reads at `(p, q)` the column at `p`. -/
theorem broadcastTo_col_apply {α : Type} (v : S1024x1.Idx → α) (h : S1024x1.Broadcasts S1024x1024) (p q : Fin 1024) :
    broadcastTo S1024x1024 v h (ix2 p q) = v (ix2 p (0 : Fin 1)) := by
  refine broadcastTo_apply v h (ix2 p q) (ix2 p (0 : Fin 1)) fun ax => ?_
  match ax with
  | ⟨0, _⟩ =>
    show p.val = if (1024 : Nat) = 1 then 0 else p.val
    rw [if_neg (by decide)]
  | ⟨1, _⟩ => rfl

/-- The sum along the lanes of a 1024 × 1024 block, at row `p`: the sum over the column coordinate. -/
theorem laneSum_at (src : FVec Ideal S1024x1024 .f32) (h : S1024x1024.Reduces [1] S1024) (hφ : FKind.Formats .f32)
    (hacc : (0x00000000#32 : BitVec 32) = 0x00000000#32) (p : Fin 1024) :
    multiReduction (F := Ideal) .add [1] S1024 src 0x00000000#32 h hφ hacc (ix1 p) = ∑ q : Fin 1024, src (ix2 p q) := by
  refine (Ideal.multiReduction_add_single src 0x00000000#32 h hφ hacc (ix1 p)).trans ?_
  refine Finset.sum_congr rfl fun k _ => congrArg src ?_
  funext a
  apply Fin.ext
  match a with
  | ⟨0, _⟩ => rfl
  | ⟨1, _⟩ => rfl

/-- A comparison bit widened to a word and read as a signed number is the indicator of the equality. -/
theorem eqBit_toEReal (A B : BitVec 32) :
    ((((IntOp.cmpi .eq A B).setWidth 32).toInt : ℝ) : EReal) = if A = B then 1 else 0 := by
  have key : ∀ c : Bool, ((BitVec.ofBool c).setWidth 32).toInt = if c then 1 else 0 := by decide
  show (((((BitVec.ofBool (A == B)).setWidth 32).toInt : ℝ)) : EReal) = _
  rw [key]
  by_cases h : A = B
  · subst h
    simp
  · have hb : (A == B) = false := by simpa using h
    rw [hb, if_neg h]
    simp

/-- The label mask at `(p, q)`: one when row `p`'s label is column `q`'s, else zero. -/
theorem mask_at (la : IVec S1024x1 32) (lb : IVec S1x1024 32) (h1 : S1024x1.Broadcasts S1024x1024)
    (h2 : S1x1024.Broadcasts S1024x1024) (h3 : 1 < 32) (p q : Fin 1024) :
    (sitofp (F := Ideal) .f32 (extui 32 (cmpi .eq (broadcastTo S1024x1024 la h1) (broadcastTo S1024x1024 lb h2)) h3))
        (ix2 p q)
      = if la (ix2 p (0 : Fin 1)) = lb (ix2 (0 : Fin 1) q) then 1 else 0 := by
  show (((((IntOp.cmpi .eq (broadcastTo S1024x1024 la h1 (ix2 p q)) (broadcastTo S1024x1024 lb h2 (ix2 p q))).setWidth 32).toInt
    : ℝ) : EReal)) = _
  rw [broadcastTo_col_apply, broadcastTo_1b_ab_apply, eqBit_toEReal]

/-! ## The accumulating payloads at an index -/

/-- The denominator accumulator's update at row `p`: the accumulator plus the sum over the block's columns of the
    exponential of the scaled logit, kept where the row's label is the column's. -/
theorem pay6_apply (a b : Vec Ideal S1024x1024 .bf16) (la : Vec Ideal S1024x1 .i32) (lb : Vec Ideal S1x1024 .i32)
    (acc : Vec Ideal S1024x1 .f32) (p : Fin 1024) :
    k0_pay6 (F := Ideal) a b la lb acc (ix2 p (0 : Fin 1))
      = acc (ix2 p (0 : Fin 1))
        + ∑ q : Fin 1024, Ideal.exp (k0_pay5 (F := Ideal) a b (ix2 p q))
            * (if la (ix2 p (0 : Fin 1)) = lb (ix2 (0 : Fin 1) q) then 1 else 0) := by
  unfold k0_pay6
  simp only [shapeCast_self]
  rw [addf_apply, shapeCast_col_apply, laneSum_at]
  refine congrArg (acc (ix2 p (0 : Fin 1)) + ·) (Finset.sum_congr rfl fun q _ => ?_)
  rw [mulf_apply, mask_at]
  rfl

/-- The logit accumulator's update at row `p`: the accumulator plus the sum over the block's columns of the
    scaled logit. -/
theorem pay7_apply (a b : Vec Ideal S1024x1024 .bf16) (acc : Vec Ideal S1024x1 .f32) (p : Fin 1024) :
    k0_pay7 (F := Ideal) a b acc (ix2 p (0 : Fin 1))
      = acc (ix2 p (0 : Fin 1)) + ∑ q : Fin 1024, k0_pay5 (F := Ideal) a b (ix2 p q) := by
  unfold k0_pay7
  rw [addf_apply, shapeCast_col_apply, laneSum_at]

/-! ## The remaining payloads -/

/-- The identity reshape. -/
theorem pay1_eq (v : FVec Ideal S1024x1 .f32) : k0_pay1 (F := Ideal) v = v := by
  unfold k0_pay1
  exact shapeCast_self v _

/-- The logarithm, element by element. -/
theorem pay2_apply (v : Vec Ideal S1024x1 .f32) (y : S1024x1.Idx) : k0_pay2 (F := Ideal) v y = Ideal.log (v y) := rfl

/-- The zero column the denominator accumulator starts from. -/
theorem pay3_apply (y : S1024x1.Idx) : k0_pay3 (F := Ideal) y = 0 := by
  unfold k0_pay3
  simp only [shapeCast_self]
  exact Ideal.ofBits_zero_f32

/-- The zero column the logit accumulator starts from. -/
theorem pay4_apply (y : S1024x1.Idx) : k0_pay4 (F := Ideal) y = 0 := by
  unfold k0_pay4
  simp only [shapeCast_self]
  exact Ideal.ofBits_zero_f32

end Cert.Contrastive

end
-- ==== Proof.BlockSum.lean ====
/-
  The eight column blocks make the whole row.

  Row block `i`'s accumulators, after the column blocks `0 … 7`, hold at row `p` the sum over all 8192 rows
  `k` of the matrix — `k = j * 1024 + q` for column block `j` and column `q` — of the logit of the pair
  `(i * 1024 + p, k)`, and of its exponential kept where the two rows carry one label. Sums in the extended
  reals are sums in a commutative monoid: re-indexing needs no finiteness.
-/
import proofs.«148247_j71236327571460_1_alg».proof.Proof.Blocks
import proofs.«148247_j71236327571460_1_alg».proof.Proof.PayloadAt

noncomputable section

open scoped BigOperators

namespace Cert.Contrastive

open Idealize.ShloMosaic Idealize.ShloMosaic.ValueIdx Cert.KernelIdeal Cert.KernelIdeal.Gen

/-- Row `p` of block `i`, as a row of the matrix. -/
abbrev blockRow (i : Fin 8) (p : Fin 1024) : Fin 8192 :=
  ⟨i.val * 1024 + p.val, by have := i.isLt; have := p.isLt; omega⟩

/-- A row of the matrix is a block and a row inside it. -/
def rowEquiv : Fin 8 × Fin 1024 ≃ Fin 8192 where
  toFun jq := blockRow jq.1 jq.2
  invFun k := (⟨k.val / 1024, by have := k.isLt; omega⟩, ⟨k.val % 1024, Nat.mod_lt _ (by decide)⟩)
  left_inv := fun ⟨j, q⟩ => Prod.ext
    (Fin.ext (by show (j.val * 1024 + q.val) / 1024 = j.val; have := q.isLt; omega))
    (Fin.ext (by show (j.val * 1024 + q.val) % 1024 = q.val; have := q.isLt; omega))
  right_inv := fun k => Fin.ext (by show k.val / 1024 * 1024 + k.val % 1024 = k.val; omega)

/-- A sum over the rows is the sum over the blocks of the sums over each block's rows. -/
theorem sum_rows {M : Type*} [AddCommMonoid M] (f : Fin 8192 → M) :
    ∑ k : Fin 8192, f k = ∑ j : Fin 8, ∑ q : Fin 1024, f (blockRow j q) := by
  rw [← Equiv.sum_comp rowEquiv f, Fintype.sum_prod_type]
  rfl

/-- The first eight block numbers, each wrapped into the eight there are, are the eight blocks. -/
theorem sum_range8 {M : Type*} [AddCommMonoid M] (g : Fin 8 → M) :
    ∑ n ∈ Finset.range 8, g ⟨n % 8, Nat.mod_lt _ (by decide)⟩ = ∑ j : Fin 8, g j := by
  rw [Finset.sum_range]
  exact Finset.sum_congr rfl fun j _ => congrArg g (Fin.ext (Nat.mod_eq_of_lt j.isLt))

/-! ## One column block -/

/-- The scaled logits' block of the pair of blocks `(i, j)` holds at `(p, q)` the logit of the two rows. -/
theorem pay5_block (x : SFeat.Idx → EReal) (i j : Fin 8) (p q : Fin 1024) :
    k0_pay5 (F := Ideal) (featBlock x i) (featBlock x j) (ix2 p q) = logit x (blockRow i p) (blockRow j q) := by
  rw [pay5_apply]
  rfl

/-- One column block's contribution to the denominator accumulator. -/
theorem pay6_block (x : SFeat.Idx → EReal) (lab : SLab.Idx → BitVec 32) (i j : Fin 8)
    (acc : Vec Ideal S1024x1 .f32) (p : Fin 1024) :
    k0_pay6 (F := Ideal) (featBlock x i) (featBlock x j) (labRows lab i) (labCols lab j) acc (ix2 p (0 : Fin 1))
      = acc (ix2 p (0 : Fin 1))
        + ∑ q : Fin 1024, Ideal.exp (logit x (blockRow i p) (blockRow j q)) * same lab (blockRow i p) (blockRow j q) := by
  rw [pay6_apply]
  refine congrArg (acc (ix2 p (0 : Fin 1)) + ·) (Finset.sum_congr rfl fun q _ => ?_)
  rw [pay5_block]
  rfl

/-- One column block's contribution to the logit accumulator. -/
theorem pay7_block (x : SFeat.Idx → EReal) (i j : Fin 8) (acc : Vec Ideal S1024x1 .f32) (p : Fin 1024) :
    k0_pay7 (F := Ideal) (featBlock x i) (featBlock x j) acc (ix2 p (0 : Fin 1))
      = acc (ix2 p (0 : Fin 1)) + ∑ q : Fin 1024, logit x (blockRow i p) (blockRow j q) := by
  rw [pay7_apply]
  exact congrArg (acc (ix2 p (0 : Fin 1)) + ·) (Finset.sum_congr rfl fun q _ => pay5_block x i j p q)

/-! ## The accumulators after `n + 1` column blocks -/

theorem logAcc_apply (x : SFeat.Idx → EReal) (i : Fin 8) (p : Fin 1024) (n : Nat) :
    logAcc x i n (ix2 p (0 : Fin 1))
      = ∑ m ∈ Finset.range (n + 1),
          ∑ q : Fin 1024, logit x (blockRow i p) (blockRow ⟨m % 8, Nat.mod_lt _ (by decide)⟩ q) := by
  induction n with
  | zero =>
    rw [logAcc_zero, pay1_eq, pay7_block, pay4_apply, zero_add, Finset.sum_range_one]
    rfl
  | succ n ih =>
    rw [logAcc_succ, pay1_eq, pay7_block, ih, Finset.sum_range_succ _ (n + 1)]

theorem denAcc_apply (x : SFeat.Idx → EReal) (lab : SLab.Idx → BitVec 32) (i : Fin 8) (p : Fin 1024) (n : Nat) :
    denAcc x lab i n (ix2 p (0 : Fin 1))
      = ∑ m ∈ Finset.range (n + 1),
          ∑ q : Fin 1024, Ideal.exp (logit x (blockRow i p) (blockRow ⟨m % 8, Nat.mod_lt _ (by decide)⟩ q))
            * same lab (blockRow i p) (blockRow ⟨m % 8, Nat.mod_lt _ (by decide)⟩ q) := by
  induction n with
  | zero =>
    rw [denAcc_zero, pay6_block, pay3_apply, zero_add, Finset.sum_range_one]
    rfl
  | succ n ih =>
    rw [denAcc_succ, pay6_block, ih, Finset.sum_range_succ _ (n + 1)]

/-! ## The whole row -/

/-- After the eight column blocks the logit accumulator holds each row's sum of logits. -/
theorem logAcc_final (x : SFeat.Idx → EReal) (i : Fin 8) (p : Fin 1024) :
    logAcc x i 7 (ix2 p (0 : Fin 1))
      = rowLogits x (⟨i.val * 1024 + p.val, by have := i.isLt; have := p.isLt; omega⟩ : Fin 8192) := by
  refine (logAcc_apply x i p 7).trans
    ((sum_range8 (fun j => ∑ q : Fin 1024, logit x (blockRow i p) (blockRow j q))).trans ?_)
  exact (sum_rows (fun k => logit x (blockRow i p) k)).symm

/-- After the eight column blocks the logarithm of the denominator accumulator is each row's log-denominator. -/
theorem denAcc_final (x : SFeat.Idx → EReal) (lab : SLab.Idx → BitVec 32) (i : Fin 8) (p : Fin 1024) :
    k0_pay2 (F := Ideal) (denAcc x lab i 7) (ix2 p (0 : Fin 1))
      = Ideal.log (denom x lab (⟨i.val * 1024 + p.val, by have := i.isLt; have := p.isLt; omega⟩ : Fin 8192)) := by
  rw [pay2_apply]
  refine congrArg Ideal.log ?_
  refine (denAcc_apply x lab i p 7).trans
    ((sum_range8 (fun j => ∑ q : Fin 1024, Ideal.exp (logit x (blockRow i p) (blockRow j q))
      * same lab (blockRow i p) (blockRow j q))).trans ?_)
  exact (sum_rows (fun k => Ideal.exp (logit x (blockRow i p) k) * same lab (blockRow i p) k)).symm

end Cert.Contrastive

end
-- ==== Proof.KI.Value.lean ====
/-
  The values behind the pipeline's proof data, at the extended reals: the arrays the region finds are the feature
  matrix and the two re-layouts of the label vector; each input window's block at a grid point is a block of them;
  the two accumulators after a point are the column accumulators of the point's row block after the point's column
  block; and the two output arrays end at each row's sum of logits and each row's log-denominator.
-/
import proofs.«148247_j71236327571460_1_alg».proof.Proof.KI.Dat
import proofs.«148247_j71236327571460_1_alg».proof.Proof.BlockSum
import Idealize.ShloMosaic.Lib.Pipeline.Value
import Idealize.ShloMosaic.Lib.StableHlo.Run

set_option maxRecDepth 16384

noncomputable section

namespace Cert.Contrastive.KernelValue

open Cert.KernelIdeal Cert.KernelIdeal.Gen Cert.KernelIdeal.Hand Cert.Contrastive
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-- The feature matrix and the label vector at launch. -/
abbrev feat : SFeat.Idx → EReal := m ((c : Thread nD τ).loc main_arg0)
abbrev labs : SLab.Idx → BitVec 32 := m ((c : Thread nD τ).loc main_arg1)

/-! ## The arrays the region finds -/

/-- The converted matrix is the matrix: a change of format is the identity on extended reals. -/
theorem V_v0 : (V m c main_v0 : S8192x1024.Idx → EReal) = feat m c := by
  dsimp only [V]
  after_results
  rfl

/-- The labels as a column … -/
theorem V_v1 : (V m c main_v1 : S8192x1.Idx → BitVec 32)
    = broadcastInDim S8192x1 ![0] bcast_S8192_S8192x1_0 (labs m c) := by
  dsimp only [V]
  after_results

/-- … and as a row. -/
theorem V_v2 : (V m c main_v2 : S1x8192.Idx → BitVec 32)
    = broadcastInDim S1x8192 ![1] bcast_S8192_S1x8192_1 (labs m c) := by
  dsimp only [V]
  after_results

/-- The labels' column at `(r, u)` is row `r`'s label … -/
theorem V_v1_apply (j : S8192x1.Idx) (k : S8192.Idx) (hk : (k 0).val = (j 0).val) :
    (V m c main_v1 : S8192x1.Idx → BitVec 32) j = labs m c k := by
  rw [V_v1]
  exact broadcastInDim_apply _ bcast_S8192_S8192x1_0 (labs m c) j k (fun a => match a with
    | ⟨0, _⟩ => by show (k 0).val = if (8192 : Nat) = 1 then 0 else (j 0).val; rw [if_neg (by decide), hk])

/-- … and the labels' row at `(u, r)` likewise. -/
theorem V_v2_apply (j : S1x8192.Idx) (k : S8192.Idx) (hk : (k 0).val = (j 1).val) :
    (V m c main_v2 : S1x8192.Idx → BitVec 32) j = labs m c k := by
  rw [V_v2]
  exact broadcastInDim_apply _ bcast_S8192_S1x8192_1 (labs m c) j k (fun a => match a with
    | ⟨0, _⟩ => by show (k 0).val = if (8192 : Nat) = 1 then 0 else (j 1).val; rw [if_neg (by decide), hk])

/-! ## The blocks at a grid point -/

/-- A point of the 8 × 8 grid is below 64. -/
theorem point_lt (t : Fin cfg0.N) : t.val < 64 := Nat.lt_of_lt_of_eq t.isLt N_0

/-- The row block and the column block of a grid point. -/
abbrev rowBlk (t : Fin cfg0.N) : Fin 8 := ⟨t.val / 8, by have := point_lt t; omega⟩
abbrev colBlk (t : Fin cfg0.N) : Fin 8 := ⟨t.val % 8, Nat.mod_lt _ (by decide)⟩

/-- The printed index maps, decided over the grid: the row-block windows sit at block `t / 8`, the column-block
    windows at block `t % 8`. -/
theorem idx_facts : ∀ t : Fin cfg0.N,
    win0_0.index t (0 : Fin 2) = t.val / 8 ∧ win0_0.index t (1 : Fin 2) = 0
    ∧ win0_1.index t (0 : Fin 2) = t.val % 8 ∧ win0_1.index t (1 : Fin 2) = 0
    ∧ win0_2.index t (0 : Fin 2) = t.val / 8 ∧ win0_2.index t (1 : Fin 2) = 0
    ∧ win0_3.index t (0 : Fin 2) = 0 ∧ win0_3.index t (1 : Fin 2) = t.val % 8
    ∧ win0_4.index t (0 : Fin 2) = t.val / 8 ∧ win0_4.index t (1 : Fin 2) = 0
    ∧ win0_5.index t (0 : Fin 2) = t.val / 8 ∧ win0_5.index t (1 : Fin 2) = 0 :=
  (by decide +kernel : ∀ t : Fin grid0.N, _)

/-- The row block of the feature matrix at a point. -/
theorem rowsAt_eq (t : Fin cfg0.N) : rowsAt m c t = featBlock (feat m c) (rowBlk t) := by
  obtain ⟨e0, e1, -⟩ := idx_facts t
  funext y
  show iblk (F := Ideal) m c 0 t y = _
  unfold iblk
  rw [View.read_apply]
  show (V m c main_v0 : S8192x1024.Idx → EReal) (((cfg0.win 0).blk t).view.emb y) = _
  rw [V_v0]
  refine congrArg (feat m c) (funext fun a => Fin.ext ?_)
  match a with
  | ⟨0, _⟩ =>
    show win0_0.index t (0 : Fin 2) * 1024 + 1 * (y 0).val = t.val / 8 * 1024 + (y 0).val
    rw [e0]; omega
  | ⟨1, _⟩ =>
    show win0_0.index t (1 : Fin 2) * 1024 + 1 * (y 1).val = (y 1).val
    rw [e1]; omega

/-- The column block of the feature matrix at a point. -/
theorem colsAt_eq (t : Fin cfg0.N) : colsAt m c t = featBlock (feat m c) (colBlk t) := by
  obtain ⟨-, -, e0, e1, -⟩ := idx_facts t
  funext y
  show iblk (F := Ideal) m c 1 t y = _
  unfold iblk
  rw [View.read_apply]
  show (V m c main_v0 : S8192x1024.Idx → EReal) (((cfg0.win 1).blk t).view.emb y) = _
  rw [V_v0]
  refine congrArg (feat m c) (funext fun a => Fin.ext ?_)
  match a with
  | ⟨0, _⟩ =>
    show win0_1.index t (0 : Fin 2) * 1024 + 1 * (y 0).val = t.val % 8 * 1024 + (y 0).val
    rw [e0]; omega
  | ⟨1, _⟩ =>
    show win0_1.index t (1 : Fin 2) * 1024 + 1 * (y 1).val = (y 1).val
    rw [e1]; omega

/-- The row block's labels at a point. -/
theorem rowLabsAt_eq (t : Fin cfg0.N) : rowLabsAt m c t = labRows (labs m c) (rowBlk t) := by
  obtain ⟨-, -, -, -, e0, e1, -⟩ := idx_facts t
  funext y
  show iblk (F := Ideal) m c 2 t y = _
  unfold iblk
  rw [View.read_apply]
  show (V m c main_v1 : S8192x1.Idx → BitVec 32) (((cfg0.win 2).blk t).view.emb y) = _
  refine V_v1_apply m c _ _ ?_
  show t.val / 8 * 1024 + (y 0).val = win0_2.index t (0 : Fin 2) * 1024 + 1 * (y 0).val
  rw [e0]; omega

/-- The column block's labels at a point. -/
theorem colLabsAt_eq (t : Fin cfg0.N) : colLabsAt m c t = labCols (labs m c) (colBlk t) := by
  obtain ⟨-, -, -, -, -, -, e0, e1, -⟩ := idx_facts t
  funext y
  show iblk (F := Ideal) m c 3 t y = _
  unfold iblk
  rw [View.read_apply]
  show (V m c main_v2 : S1x8192.Idx → BitVec 32) (((cfg0.win 3).blk t).view.emb y) = _
  refine V_v2_apply m c _ _ ?_
  show t.val % 8 * 1024 + (y 1).val = win0_3.index t (1 : Fin 2) * 1024 + 1 * (y 1).val
  rw [e1]; omega

end Cert.Contrastive.KernelValue

end
-- ==== Proof.KI.ValueFinal.lean ====
/-
  The accumulators after a grid point and the two output arrays after the run.

  After the point `t` the two scratch accumulators hold the column accumulators of row block `t / 8` after column
  block `t % 8`; the points of the last column block write them out, the first as it is and the second through the
  logarithm, each to the rows of its row block; the row blocks tile the 8192 rows. So the first output array ends at
  each row's sum of logits and the second at each row's log-denominator.
-/
import proofs.«148247_j71236327571460_1_alg».proof.Proof.KI.Value

set_option maxRecDepth 16384

noncomputable section

namespace Cert.Contrastive.KernelValue

open Cert.KernelIdeal Cert.KernelIdeal.Gen Cert.KernelIdeal.Hand Cert.Contrastive
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (c : Dev nD)

/-! ## The accumulators after a point -/

theorem acc_eq_aux (n : ℕ) : ∀ hn : n < cfg0.N,
    acc (F := Ideal) m c n hn
      = (denAcc (feat m c) (labs m c) (rowBlk ⟨n, hn⟩) (n % 8), logAcc (feat m c) (rowBlk ⟨n, hn⟩) (n % 8)) := by
  induction n with
  | zero =>
    intro hn
    show step (F := Ideal) m c ⟨0, hn⟩ zeros = _
    unfold step zeros
    rw [rowsAt_eq, colsAt_eq, rowLabsAt_eq, colLabsAt_eq]
    rfl
  | succ n ih =>
    intro hn
    by_cases h0 : (n + 1) % 8 = 0
    · rw [acc_first (F := Ideal) m c ⟨n + 1, hn⟩ h0]
      unfold step zeros
      rw [rowsAt_eq, colsAt_eq, rowLabsAt_eq, colLabsAt_eq, h0]
      have hc : colBlk ⟨n + 1, hn⟩ = 0 := Fin.ext h0
      rw [hc]
      rfl
    · have hr : rowBlk ⟨n, Nat.lt_of_succ_lt hn⟩ = rowBlk ⟨n + 1, hn⟩ :=
        Fin.ext (by show n / 8 = (n + 1) / 8; omega)
      have hm : (n + 1) % 8 = n % 8 + 1 := by omega
      have hcb : (⟨(n % 8 + 1) % 8, Nat.mod_lt _ (by decide)⟩ : Fin 8) = colBlk ⟨n + 1, hn⟩ :=
        Fin.ext (by show (n % 8 + 1) % 8 = (n + 1) % 8; omega)
      rw [acc_next (F := Ideal) m c ⟨n + 1, hn⟩ h0]
      show step (F := Ideal) m c ⟨n + 1, hn⟩ (acc (F := Ideal) m c n (Nat.lt_of_succ_lt hn)) = _
      rw [ih (Nat.lt_of_succ_lt hn)]
      unfold step
      rw [rowsAt_eq, colsAt_eq, rowLabsAt_eq, colLabsAt_eq, hr, hm, denAcc_succ, logAcc_succ, hcb]

/-- After the point `t`: row block `t / 8`'s accumulators after column block `t % 8`. -/
theorem acc_eq (t : Fin cfg0.N) :
    acc (F := Ideal) m c t.val t.isLt
      = (denAcc (feat m c) (labs m c) (rowBlk t) (t.val % 8), logAcc (feat m c) (rowBlk t) (t.val % 8)) :=
  acc_eq_aux m c t.val t.isLt

/-! ## The output arrays after the run -/

/-- What the first output array ends holding: each row's sum of logits. -/
abbrev G4 : S8192x1.Idx → EReal := fun i => rowLogits (feat m c) (⟨(i 0).val, idx2_lt0 i⟩ : Fin 8192)
/-- What the second output array ends holding: each row's log-denominator. -/
abbrev G5 : S8192x1.Idx → EReal :=
  fun i => Ideal.log (denom (feat m c) (labs m c) (⟨(i 0).val, idx2_lt0 i⟩ : Fin 8192))

/-- An index of the first output array is in point `t`'s block iff each coordinate is in the block's range. -/
theorem mem_blk4 (t : Fin cfg0.N) (i : S8192x1.Idx) :
    i ∈ ((cfg0.win 4).blk t).view.set ↔ ∀ a : Fin 2, win0_4.index t a * S1024x1.size a ≤ (i a).val
      ∧ (i a).val < win0_4.index t a * S1024x1.size a + S1024x1.size a := by
  show i ∈ ((View.whole main_v3_0).slice (win0_4.rect t)).set ↔ _
  rw [View.set_slice_whole, Rect.mem_set_unit]
  exact Iff.rfl

theorem mem_blk5 (t : Fin cfg0.N) (i : S8192x1.Idx) :
    i ∈ ((cfg0.win 5).blk t).view.set ↔ ∀ a : Fin 2, win0_5.index t a * S1024x1.size a ≤ (i a).val
      ∧ (i a).val < win0_5.index t a * S1024x1.size a + S1024x1.size a := by
  show i ∈ ((View.whole main_v3_1).slice (win0_5.rect t)).set ↔ _
  rw [View.set_slice_whole, Rect.mem_set_unit]
  exact Iff.rfl

/-- The point that writes out row `r`'s block: the last column block of row block `r / 1024`. -/
def lastPoint (i : S8192x1.Idx) : Fin cfg0.N :=
  ⟨(i 0).val / 1024 * 8 + 7, by have := idx2_lt0 i; rw [show cfg0.N = 64 from N_0]; omega⟩

theorem lastPoint_val (i : S8192x1.Idx) : (lastPoint i).val = (i 0).val / 1024 * 8 + 7 := rfl

/-- Every row is in the block some writing point writes (first output). -/
theorem cover4 (i : S8192x1.Idx) :
    ∃ t : Fin cfg0.N, (cfg0.win 4).flush t = true ∧ i ∈ ((cfg0.win 4).blk t).view.set := by
  have hi0 : (i 0).val < 8192 := idx2_lt0 i
  have hi1 : (i 1).val < 1 := idx2_lt1 i
  have ht := lastPoint_val i
  obtain ⟨-, -, -, -, -, -, -, -, e0, e1, -⟩ := idx_facts (lastPoint i)
  refine ⟨lastPoint i, (flush0_4 _).mpr (by rw [ht]; omega), ?_⟩
  rw [mem_blk4]
  intro a
  match a with
  | ⟨0, _⟩ =>
    show win0_4.index (lastPoint i) (0 : Fin 2) * 1024 ≤ (i 0).val
      ∧ (i 0).val < win0_4.index (lastPoint i) (0 : Fin 2) * 1024 + 1024
    rw [e0, ht]; omega
  | ⟨1, _⟩ =>
    show win0_4.index (lastPoint i) (1 : Fin 2) * 1 ≤ (i 1).val
      ∧ (i 1).val < win0_4.index (lastPoint i) (1 : Fin 2) * 1 + 1
    rw [e1]; omega

/-- Every row is in the block some writing point writes (second output). -/
theorem cover5 (i : S8192x1.Idx) :
    ∃ t : Fin cfg0.N, (cfg0.win 5).flush t = true ∧ i ∈ ((cfg0.win 5).blk t).view.set := by
  have hi0 : (i 0).val < 8192 := idx2_lt0 i
  have hi1 : (i 1).val < 1 := idx2_lt1 i
  have ht := lastPoint_val i
  obtain ⟨-, -, -, -, -, -, -, -, -, -, e0, e1⟩ := idx_facts (lastPoint i)
  refine ⟨lastPoint i, (flush0_5 _).mpr (by rw [ht]; omega), ?_⟩
  rw [mem_blk5]
  intro a
  match a with
  | ⟨0, _⟩ =>
    show win0_5.index (lastPoint i) (0 : Fin 2) * 1024 ≤ (i 0).val
      ∧ (i 0).val < win0_5.index (lastPoint i) (0 : Fin 2) * 1024 + 1024
    rw [e0, ht]; omega
  | ⟨1, _⟩ =>
    show win0_5.index (lastPoint i) (1 : Fin 2) * 1 ≤ (i 1).val
      ∧ (i 1).val < win0_5.index (lastPoint i) (1 : Fin 2) * 1 + 1
    rw [e1]; omega

/-- What a point of the last column block writes back to the first output is its block of `G4`. -/
theorem flushed4_eq (t : Fin cfg0.N) (hf : (cfg0.win 4).flush t = true) :
    (dats (F := Ideal) m 0 c).flushed 4 t = ((cfg0.win 4).blk t).view.read (Elt Ideal) (G4 m c) := by
  have h7 : t.val % 8 = 7 := (flush0_4 t).mp hf
  obtain ⟨-, -, -, -, -, -, -, -, e0, e1, -⟩ := idx_facts t
  show (cfg0.win 4).cut (grid0.coords t) ((dats (F := Ideal) m 0 c).after 4 t) = _
  rw [after4, acc_eq]
  funext y
  rw [View.read_apply]
  have hp : (y 0).val < 1024 := Nat.lt_of_lt_of_le (y 0).isLt ((cfg0.win 4).xsize_le (grid0.coords t) 0)
  have hu : (y 1).val < 1 := Nat.lt_of_lt_of_le (y 1).isLt ((cfg0.win 4).xsize_le (grid0.coords t) 1)
  have hy : (cfg0.win 4).xinj (grid0.coords t) y = ix2 (⟨(y 0).val, hp⟩ : Fin 1024) (0 : Fin 1) :=
    funext fun a => Fin.ext (by
      match a with
      | ⟨0, _⟩ => rfl
      | ⟨1, _⟩ => show (y 1).val = 0; omega)
  show logAcc (feat m c) (rowBlk t) (t.val % 8) ((cfg0.win 4).xinj (grid0.coords t) y)
    = G4 m c (((cfg0.win 4).blk t).view.emb y)
  rw [hy, h7, logAcc_final]
  refine congrArg (rowLogits (feat m c)) (Fin.ext ?_)
  show t.val / 8 * 1024 + (y 0).val = win0_4.index t (0 : Fin 2) * 1024 + 1 * (y 0).val
  rw [e0]; omega

/-- What a point of the last column block writes back to the second output is its block of `G5`. -/
theorem flushed5_eq (t : Fin cfg0.N) (hf : (cfg0.win 5).flush t = true) :
    (dats (F := Ideal) m 0 c).flushed 5 t = ((cfg0.win 5).blk t).view.read (Elt Ideal) (G5 m c) := by
  have h7 : t.val % 8 = 7 := (flush0_5 t).mp hf
  obtain ⟨-, -, -, -, -, -, -, -, -, -, e0, e1⟩ := idx_facts t
  show (cfg0.win 5).cut (grid0.coords t) ((dats (F := Ideal) m 0 c).after 5 t) = _
  rw [after5, acc_eq]
  funext y
  rw [View.read_apply]
  have hp : (y 0).val < 1024 := Nat.lt_of_lt_of_le (y 0).isLt ((cfg0.win 5).xsize_le (grid0.coords t) 0)
  have hu : (y 1).val < 1 := Nat.lt_of_lt_of_le (y 1).isLt ((cfg0.win 5).xsize_le (grid0.coords t) 1)
  have hy : (cfg0.win 5).xinj (grid0.coords t) y = ix2 (⟨(y 0).val, hp⟩ : Fin 1024) (0 : Fin 1) :=
    funext fun a => Fin.ext (by
      match a with
      | ⟨0, _⟩ => rfl
      | ⟨1, _⟩ => show (y 1).val = 0; omega)
  show k0_pay2 (F := Ideal) (denAcc (feat m c) (labs m c) (rowBlk t) (t.val % 8)) ((cfg0.win 5).xinj (grid0.coords t) y)
    = G5 m c (((cfg0.win 5).blk t).view.emb y)
  rw [hy, h7, denAcc_final]
  refine congrArg (fun r => Ideal.log (denom (feat m c) (labs m c) r)) (Fin.ext ?_)
  show t.val / 8 * 1024 + (y 0).val = win0_5.index t (0 : Fin 2) * 1024 + 1 * (y 0).val
  rw [e0]; omega

/-- THE FIRST OUTPUT ARRAY after the run: each row's sum of logits. -/
theorem final4 : (dats (F := Ideal) m 0 c).arrAt 4 cfg0.N = G4 m c :=
  (dats (F := Ideal) m 0 c).arrAt_eq_of_cover 4 (G4 m c) (flushed4_eq m c) cover4

/-- THE SECOND OUTPUT ARRAY after the run: each row's log-denominator. -/
theorem final5 : (dats (F := Ideal) m 0 c).arrAt 5 cfg0.N = G5 m c :=
  (dats (F := Ideal) m 0 c).arrAt_eq_of_cover 5 (G5 m c) (flushed5_eq m c) cover5

/-- The same, row by row, in the form the host operations after the kernel take. -/
theorem final4_apply (r : Fin 8192) :
    ((dats (F := Ideal) m 0 c).arrAt 4 cfg0.N : S8192x1.Idx → EReal) (ix2 r (0 : Fin 1)) = rowLogits (feat m c) r := by
  rw [final4]

theorem final5_apply (r : Fin 8192) :
    ((dats (F := Ideal) m 0 c).arrAt 5 cfg0.N : S8192x1.Idx → EReal) (ix2 r (0 : Fin 1))
      = Ideal.log (denom (feat m c) (labs m c) r) := by
  rw [final5]

end Cert.Contrastive.KernelValue

end
-- ==== Proof.Tail.lean ====
/-
  The host operations after the kernel: the two column outputs are summed, the first sum divided by the number
  of pairs and negated, the second divided by the number of rows, and the two added. With the first column
  each row's sum of logits and the second each row's log-denominator, the result is the loss.
-/
import proofs.«148247_j71236327571460_1_alg».proof.Proof.Spec
import proofs.«148247_j71236327571460_1_alg».proof.Proof.Gen.KernelIdeal
import Idealize.ShloMosaic.Lib.ValueIdx
import Idealize.ShloMosaic.PureOps.Ideal.Laws

noncomputable section

open scoped BigOperators

namespace Cert.Contrastive

open Idealize.ShloMosaic Idealize.ShloMosaic.ValueIdx Cert.KernelIdeal Cert.KernelIdeal.Gen

/-- The word of the pair count denotes 8192² = 67108864. -/
theorem ofBits_pairs : Ideal.ofBits .f32 0x4C800000#32 = ((67108864 : ℝ) : EReal) := by
  simp [Ideal.ofBits, Ideal.ieee, -EReal.coe_mul]; norm_num

/-- The word of the row count denotes 8192. -/
theorem ofBits_rows : Ideal.ofBits .f32 0x46000000#32 = ((8192 : ℝ) : EReal) := by
  simp [Ideal.ofBits, Ideal.ieee, -EReal.coe_mul]; norm_num

/-- The host's sum of a column from the zero initial value: the sum over the rows. -/
theorem colSum_eq (o : FVec Ideal S8192x1 .f32) (j : S_.Idx) :
    Host.reduceAdd (F := Ideal) o (constant (F := Ideal) S_ .f32 0x00000000#32) reducesTo_S8192x1_S_d0_1 h_S_ j
      = ∑ r : Fin 8192, o (ix2 r (0 : Fin 1)) := by
  simp only [Host.reduceAdd, Ideal.hostReduceAdd_def]
  rw [Ideal.hostReduceAdd_total reducesTo_S8192x1_S_d0_1 (fun b => b.elim0), constant_apply,
    Ideal.ofBits_zero_f32, zero_add, sum_idx2]
  exact Finset.sum_congr rfl fun r _ => Fin.sum_univ_one _

/-- The ten host operations after the kernel, as one function of the kernel's two outputs. -/
def hostTail (o4 o5 : FVec Ideal S8192x1 .f32) : FVec Ideal S_ .f32 :=
  addf (F := Ideal)
    (Host.negf (F := Ideal) (Host.divf (F := Ideal)
      (Host.reduceAdd (F := Ideal) o4 (constant (F := Ideal) S_ .f32 0x00000000#32) reducesTo_S8192x1_S_d0_1 h_S_)
      (constant (F := Ideal) S_ .f32 0x4C800000#32)))
    (Host.divf (F := Ideal)
      (Host.reduceAdd (F := Ideal) o5 (constant (F := Ideal) S_ .f32 0x00000000#32) reducesTo_S8192x1_S_d0_1 h_S_)
      (constant (F := Ideal) S_ .f32 0x46000000#32))

/-- With the first output each row's sum of logits and the second each row's log-denominator, the host
    operations after the kernel compute the loss. -/
theorem hostTail_eq (x : SFeat.Idx → EReal) (lab : SLab.Idx → BitVec 32) (o4 o5 : FVec Ideal S8192x1 .f32)
    (h4 : ∀ r : Fin 8192, o4 (ix2 r (0 : Fin 1)) = rowLogits x r)
    (h5 : ∀ r : Fin 8192, o5 (ix2 r (0 : Fin 1)) = Ideal.log (denom x lab r)) :
    hostTail o4 o5 = fun _ => loss x lab := by
  funext j
  show -(Ideal.div (Host.reduceAdd (F := Ideal) o4 (constant (F := Ideal) S_ .f32 0x00000000#32) reducesTo_S8192x1_S_d0_1 h_S_ j)
        (Ideal.ofBits .f32 0x4C800000#32))
      + Ideal.div (Host.reduceAdd (F := Ideal) o5 (constant (F := Ideal) S_ .f32 0x00000000#32) reducesTo_S8192x1_S_d0_1 h_S_ j)
        (Ideal.ofBits .f32 0x46000000#32) = loss x lab
  rw [colSum_eq, colSum_eq, ofBits_pairs, ofBits_rows]
  unfold loss
  rw [Finset.sum_congr rfl fun r _ => h4 r, Finset.sum_congr rfl fun r _ => h5 r]

/-- The same, stated on the operations themselves. -/
theorem tail_eq (x : SFeat.Idx → EReal) (lab : SLab.Idx → BitVec 32) (o4 o5 : FVec Ideal S8192x1 .f32)
    (h4 : ∀ r : Fin 8192, o4 (ix2 r (0 : Fin 1)) = rowLogits x r)
    (h5 : ∀ r : Fin 8192, o5 (ix2 r (0 : Fin 1)) = Ideal.log (denom x lab r)) :
    addf (F := Ideal)
      (Host.negf (F := Ideal) (Host.divf (F := Ideal)
        (Host.reduceAdd (F := Ideal) o4 (constant (F := Ideal) S_ .f32 0x00000000#32) reducesTo_S8192x1_S_d0_1 h_S_)
        (constant (F := Ideal) S_ .f32 0x4C800000#32)))
      (Host.divf (F := Ideal)
        (Host.reduceAdd (F := Ideal) o5 (constant (F := Ideal) S_ .f32 0x00000000#32) reducesTo_S8192x1_S_d0_1 h_S_)
        (constant (F := Ideal) S_ .f32 0x46000000#32))
      = fun _ => loss x lab :=
  hostTail_eq x lab o4 o5 h4 h5

end Cert.Contrastive

end
-- ==== Proof.KI.Final.lean ====
/-
  The idealized kernel's result. After the region the two output arrays hold, row by row, the sum of the row's logits
  and the logarithm of the row's denominator; the ten host operations after it sum each array, divide the first sum by
  the number of pairs and negate it, divide the second by the number of rows, and add the two: the loss. So the run of
  @main ends with the result buffer at the loss of the launch contents of the two arguments, and the arguments unchanged.
-/
import proofs.«148247_j71236327571460_1_alg».proof.Proof.KI.Frame
import proofs.«148247_j71236327571460_1_alg».proof.Proof.KI.ValueFinal
import proofs.«148247_j71236327571460_1_alg».proof.Proof.Tail

set_option maxRecDepth 16384

noncomputable section

namespace Cert.KernelIdeal.Hand

open Cert.KernelIdeal Cert.KernelIdeal.Gen Cert.Contrastive Cert.Contrastive.KernelValue
open Idealize.ShloMosaic Idealize.ShloMosaic.TcCoe Idealize.SL.Sem

variable (m : (ℓ : Loc nD τ sig) → Buf (Elt Ideal) ℓ) (ρ : Dev nD → PrngReg)

/-- The result buffer after the ten operations is their composite of the two output arrays as the region left them. -/
theorem Vfin_v9 (c : Dev nD) :
    Vfin (F := Ideal) m c (Proc.devRef .tc main_v9)
      = hostTail ((dats (F := Ideal) m 0 c).arrAt 4 cfg0.N) ((dats (F := Ideal) m 0 c).arrAt 5 cfg0.N) := by
  rw [← Vout_v3_0 m c, ← Vout_v3_1 m c]
  show StableHlo.after hostOps1 (Vout m c) (Proc.devRef .tc main_v9) = _
  unfold hostTail
  after_results

/-- Which is the loss of the two arguments' launch contents. -/
theorem Vfin_v9_loss (c : Dev nD) :
    Vfin (F := Ideal) m c (Proc.devRef .tc main_v9) = fun _ => loss (feat m c) (labs m c) :=
  (Vfin_v9 m c).trans (hostTail_eq (feat m c) (labs m c) _ _ (final4_apply m c) (final5_apply m c))

/-- THE VALUE RUN: every weakly fair execution of the idealized kernel's @main terminates, nothing faulting, with the
    result at the loss of the arguments and the arguments unchanged. -/
theorem run_value : θ_run defs (onTc (τ := τ) (main (F := Ideal))) ⟨m, fun _ => 0, ρ⟩ (fun r => ∀ c : Dev nD,
      r.2.mem ((c.tc : Thread nD τ).loc main_v9) = (fun _ => loss (feat m c) (labs m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).2.2.trans (Vfin_v9_loss m c), (h c).1.trans (Vfin_arg0 m c), (h c).2.1.trans (Vfin_arg1 m c)⟩)
    (run_main m ρ)

end Cert.KernelIdeal.Hand

end
-- ==== Proof.RefAlgebra.lean ====
/-
  The algebra that joins the two arrangements of the loss, and the facts that keep every term a real number
  when the features are real numbers. No program is mentioned here.

  The law: for a square array of reals L and a column of reals d,
      -( (∑ i, ∑ k, (L i k - d i)) / n² ) = -( (∑ i, ∑ k, L i k) / n² ) + (∑ i, d i) / n        (n = 8192),
  because each row subtracts its d i exactly n times. It is proved over the reals and then carried to the
  extended reals, where subtraction, sums and the quotient by a nonzero real all commute with the coercion.

  The facts: with real features an inner product, hence a logit, is a real; the exponential of a real is a
  positive real; the label indicator is 0 or 1 and is 1 on the diagonal; so a row's denominator is a sum of
  nonnegative reals one of which (the diagonal term) is positive, and its logarithm is a real.
-/
import proofs.«148247_j71236327571460_1_alg».proof.Proof.Spec

noncomputable section

open scoped BigOperators

namespace Cert.Contrastive.Ref

open Idealize.ShloMosaic Idealize.ShloMosaic.ValueIdx Cert.Contrastive

/-! ## The coercion through a finite sum -/

/-- A finite sum of reals, read in the extended reals, is the sum of the readings. -/
theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The law over the reals -/

/-- Subtracting row i's number from each of the row's 8192 entries, then taking minus the mean of all 8192²
    entries, is minus the mean of the entries plus the mean of the rows' numbers. -/
theorem mean_split_real (L : Fin 8192 → Fin 8192 → ℝ) (d : Fin 8192 → ℝ) :
    -((∑ i, ∑ k, (L i k - d i)) / 67108864) = -((∑ i, ∑ k, L i k) / 67108864) + (∑ i, d i) / 8192 := by
  have h : ∑ i, ∑ k, (L i k - d i) = (∑ i, ∑ k, L i k) - 8192 * ∑ i, d i := by
    have row : ∀ i, ∑ k : Fin 8192, (L i k - d i) = (∑ k, L i k) - 8192 * d i := fun i => by
      rw [Finset.sum_sub_distrib, Finset.sum_const, Finset.card_univ, Fintype.card_fin, nsmul_eq_mul]
      norm_num
    rw [Finset.sum_congr rfl fun i _ => row i, Finset.sum_sub_distrib, Finset.mul_sum]
  rw [h]
  ring

/-! ## The law over the extended reals -/

/-- The same law for arrays of extended reals every entry of which is a real, with the quotient the
    extended reals' division by the (nonzero) counts. -/
theorem mean_split (L : Fin 8192 → Fin 8192 → EReal) (d : Fin 8192 → EReal)
    (hL : ∀ i k, ∃ r : ℝ, L i k = (r : EReal)) (hd : ∀ i, ∃ r : ℝ, d i = (r : EReal)) :
    -(Ideal.div (∑ i, ∑ k, (L i k - d i)) ((67108864 : ℝ) : EReal))
      = -(Ideal.div (∑ i, ∑ k, L i k) ((67108864 : ℝ) : EReal)) + Ideal.div (∑ i, d i) ((8192 : ℝ) : EReal) := by
  choose L' hL' using hL
  choose d' hd' using hd
  have e1 : ∑ i, ∑ k, (L i k - d i) = ((∑ i, ∑ k, (L' i k - d' i) : ℝ) : EReal) := by
    rw [← coe_sum]
    refine Finset.sum_congr rfl fun i _ => ?_
    rw [← coe_sum]
    refine Finset.sum_congr rfl fun k _ => ?_
    rw [hL', hd', EReal.coe_sub]
  have e2 : ∑ i, ∑ k, L i k = ((∑ i, ∑ k, L' i k : ℝ) : EReal) := by
    rw [← coe_sum]
    refine Finset.sum_congr rfl fun i _ => ?_
    rw [← coe_sum]
    exact Finset.sum_congr rfl fun k _ => hL' i k
  have e3 : ∑ i, d i = ((∑ i, d' i : ℝ) : EReal) := by
    rw [← coe_sum]
    exact Finset.sum_congr rfl fun i _ => hd' i
  rw [e1, e2, e3, Ideal.div_coe (by norm_num), Ideal.div_coe (by norm_num), Ideal.div_coe (by norm_num),
    ← EReal.coe_mul, ← EReal.coe_mul, ← EReal.coe_mul, ← EReal.coe_neg, ← EReal.coe_neg, ← EReal.coe_add]
  refine congrArg _ ?_
  rw [mul_one_div, mul_one_div, mul_one_div]
  exact mean_split_real L' d'

/-! ## Everything is a real when the features are -/

/-- With real features the inner product of two rows is a real. -/
theorem inner_real (x : SFeat.Idx → EReal) (hx : ∀ j, ∃ r : ℝ, x j = (r : EReal)) (i k : Fin 8192) :
    ∃ r : ℝ, inner x i k = (r : EReal) := by
  choose x' hx' using hx
  refine ⟨∑ c : Fin 1024, x' (ix2 i c) * x' (ix2 k c), ?_⟩
  unfold inner
  rw [← coe_sum]
  refine Finset.sum_congr rfl fun c _ => ?_
  rw [hx', hx', EReal.coe_mul]

/-- With real features a logit is a real. -/
theorem logit_real (x : SFeat.Idx → EReal) (hx : ∀ j, ∃ r : ℝ, x j = (r : EReal)) (i k : Fin 8192) :
    ∃ r : ℝ, logit x i k = (r : EReal) := by
  obtain ⟨r, hr⟩ := inner_real x hx i k
  exact ⟨r * (268435456 / 13421773), by rw [logit, hr, invTemp, EReal.coe_mul]⟩

/-- The exponential of a real is the real exponential, which is positive. -/
theorem exp_real (r : ℝ) : Ideal.exp (r : EReal) = ((Real.exp r : ℝ) : EReal) ∧ 0 < Real.exp r :=
  ⟨rfl, Real.exp_pos r⟩

/-- The label indicator is the real 1 on equal labels and the real 0 otherwise. -/
theorem same_eq_coe (lab : SLab.Idx → BitVec 32) (i k : Fin 8192) :
    same lab i k = (((if lab (ix1 i) = lab (ix1 k) then 1 else 0 : ℝ)) : EReal) := by
  unfold same
  by_cases h : lab (ix1 i) = lab (ix1 k)
  · rw [if_pos h, if_pos h, EReal.coe_one]
  · rw [if_neg h, if_neg h, EReal.coe_zero]

/-- The label indicator takes the values 0 and 1 only. -/
theorem same_zero_or_one (lab : SLab.Idx → BitVec 32) (i k : Fin 8192) : same lab i k = 0 ∨ same lab i k = 1 := by
  unfold same
  by_cases h : lab (ix1 i) = lab (ix1 k)
  · exact Or.inr (if_pos h)
  · exact Or.inl (if_neg h)

/-- A row carries its own label. -/
theorem same_self (lab : SLab.Idx → BitVec 32) (i : Fin 8192) : same lab i i = 1 := if_pos rfl

/-- With real features a row's denominator is a positive real: a sum of nonnegative reals whose diagonal term
    is the exponential of the row's own logit. -/
theorem denom_real_pos (x : SFeat.Idx → EReal) (lab : SLab.Idx → BitVec 32) (hx : ∀ j, ∃ r : ℝ, x j = (r : EReal))
    (i : Fin 8192) : ∃ r : ℝ, 0 < r ∧ denom x lab i = (r : EReal) := by
  choose l hl using fun k => logit_real x hx i k
  refine ⟨∑ k : Fin 8192, Real.exp (l k) * (if lab (ix1 i) = lab (ix1 k) then 1 else 0), ?_, ?_⟩
  · refine Finset.sum_pos' (fun k _ => mul_nonneg (Real.exp_pos _).le (by split_ifs <;> norm_num))
      ⟨i, Finset.mem_univ _, ?_⟩
    rw [if_pos rfl, mul_one]
    exact Real.exp_pos _
  · unfold denom
    rw [← coe_sum]
    refine Finset.sum_congr rfl fun k _ => ?_
    rw [hl k, (exp_real (l k)).1, same_eq_coe, EReal.coe_mul]

/-- With real features the logarithm of a row's denominator is a real. -/
theorem log_denom_real (x : SFeat.Idx → EReal) (lab : SLab.Idx → BitVec 32) (hx : ∀ j, ∃ r : ℝ, x j = (r : EReal))
    (i : Fin 8192) : ∃ r : ℝ, Ideal.log (denom x lab i) = (r : EReal) := by
  obtain ⟨r, hpos, hr⟩ := denom_real_pos x lab hx i
  exact ⟨Real.log r, by rw [hr, Ideal.log_coe, if_neg (not_le.2 hpos)]⟩

/-! ## The loss in the reference's arrangement -/

/-- With real features the loss is minus the mean, over all pairs, of the logit less the logarithm of the
    row's denominator. -/
theorem loss_eq_mean_sub (x : SFeat.Idx → EReal) (lab : SLab.Idx → BitVec 32) (hx : ∀ j, ∃ r : ℝ, x j = (r : EReal)) :
    -(Ideal.div (∑ i : Fin 8192, ∑ k : Fin 8192, (logit x i k - Ideal.log (denom x lab i))) ((67108864 : ℝ) : EReal))
      = loss x lab :=
  mean_split (logit x) (fun i => Ideal.log (denom x lab i)) (logit_real x hx) (log_denom_real x lab hx)

end Cert.Contrastive.Ref

end
-- ==== Proof.RefValue.lean ====
/-
  The reference program's last stage is the loss of the specification.

  Reading the generated stages at an index: the quotient of the row inner product by the temperature's word is
  the logit (the word denotes 13421773/268435456, whose reciprocal is the specification's scale); the
  converted label comparison is the 0/1 indicator; the row sum of exponential times indicator, from the zero
  word, is the row's denominator; the difference stage at (p, q) is the logit less the logarithm of row p's
  denominator; the total sum over the square array is the double sum over rows and columns, the divisor's word
  denotes 8192² = 67108864, and the negation finishes minus the mean. The law of the algebra module then
  splits that mean into the specification's two means.
-/
import proofs.«148247_j71236327571460_1_alg».proof.Proof.Spec
import proofs.«148247_j71236327571460_1_alg».proof.Proof.RefAlgebra
import proofs.«148247_j71236327571460_1_alg».proof.Proof.Gen.ReferenceIdeal.Read

noncomputable section

open scoped BigOperators

namespace Cert.Contrastive.Ref

open Idealize.ShloMosaic Idealize.ShloMosaic.ValueIdx Cert.Contrastive Cert.ReferenceIdeal Cert.ReferenceIdeal.Read

/-! ## The two float words the reference divides by -/

/-- The temperature's word denotes the rational 13421773/268435456 (the nearest single-precision number to 0.05). -/
theorem ofBits_temperature : Ideal.ofBits .f32 0x3D4CCCCD#32 = ((13421773 / 268435456 : ℝ) : EReal) := by
  simp [Ideal.ofBits, Ideal.ieee, -EReal.coe_mul]; norm_num

/-- The count's word denotes 67108864 = 8192². -/
theorem ofBits_pairs : Ideal.ofBits .f32 0x4C800000#32 = ((67108864 : ℝ) : EReal) := by
  simp [Ideal.ofBits, Ideal.ieee, -EReal.coe_mul]; norm_num

/-- The quotient by the temperature's word is the product with the reciprocal temperature. -/
theorem div_temperature (v : EReal) : Ideal.div v (Ideal.ofBits .f32 0x3D4CCCCD#32) = v * invTemp := by
  rw [ofBits_temperature, Ideal.div_coe (by norm_num), invTemp]
  refine congrArg (fun t : ℝ => v * (t : EReal)) ?_
  norm_num

/-! ## The stages' index functions at explicit coordinates -/

theorem lhs_idx (p q : Fin 8192) (k : Fin 1024) : lidx_main_v1 (ix2 p q) k = ix2 p k :=
  funext fun a => Fin.ext (by match a with | ⟨0, _⟩ => rfl | ⟨1, _⟩ => rfl)

theorem rhs_idx (p q : Fin 8192) (k : Fin 1024) : idx_main_v0 (ridx_main_v1 (ix2 p q) k) = ix2 q k :=
  funext fun a => Fin.ext (by match a with | ⟨0, _⟩ => rfl | ⟨1, _⟩ => rfl)

theorem lab_row_idx (p q : Fin 8192) : idx_main_v4 (idx_main_v6 (ix2 p q)) = ix1 p :=
  funext fun a => Fin.ext (by match a with | ⟨0, _⟩ => rfl)

theorem lab_col_idx (p q : Fin 8192) : idx_main_v5 (idx_main_v7 (ix2 p q)) = ix1 q :=
  funext fun a => Fin.ext (by match a with | ⟨0, _⟩ => rfl)

theorem row_sum_idx (p k : Fin 8192) : idx_main_v12 (ix1 p) k = ix2 p k :=
  funext fun a => Fin.ext (by match a with | ⟨0, _⟩ => rfl | ⟨1, _⟩ => rfl)

theorem log_col_idx (p q : Fin 8192) : idx_main_v13 (idx_main_v15 (ix2 p q)) = ix1 p :=
  funext fun a => Fin.ext (by match a with | ⟨0, _⟩ => rfl)

/-! ## The stages at explicit coordinates -/

/-- The scaled similarity at (p, q) is the logit of the pair. -/
theorem v3_at (x : FVec Ideal S8192x1024 .f32) (p q : Fin 8192) :
    val_main_v3 (F := Ideal) x (ix2 p q) = logit x p q := by
  rw [val_main_v3_apply, val_main_v1_apply, val_main_v2_apply, val_main_cst_apply, Ideal.hostDivf_def,
    Ideal.ofBits_def, div_temperature]
  unfold logit inner
  refine congrArg (· * invTemp) (Finset.sum_congr rfl fun k _ => ?_)
  rw [val_main_v0_apply, lhs_idx, rhs_idx]

/-- The converted label comparison at (p, q) is the indicator that the two rows carry one label. -/
theorem v9_at (lab : IVec S8192 32) (p q : Fin 8192) :
    val_main_v9 (F := Ideal) lab (ix2 p q) = same lab p q := by
  rw [val_main_v9_apply, val_main_v8_apply, val_main_v6_apply, val_main_v7_apply, val_main_v4_apply,
    val_main_v5_apply, lab_row_idx, lab_col_idx]
  unfold same
  show (((IntOp.cmpi .eq (lab (ix1 p)) (lab (ix1 q))).toNat : ℝ) : EReal) = _
  by_cases h : lab (ix1 p) = lab (ix1 q)
  · rw [if_pos h, h]; simp [IntOp.cmpi]
  · rw [if_neg h]; simp [IntOp.cmpi, h]

/-- The masked exponential row sum at p is row p's denominator. -/
theorem v12_at (x : FVec Ideal S8192x1024 .f32) (lab : IVec S8192 32) (p : Fin 8192) :
    val_main_v12 (F := Ideal) x lab (ix1 p) = denom x lab p := by
  rw [val_main_v12_apply, val_main_cst_0_apply, Ideal.ofBits_def, Ideal.ofBits_zero_f32, zero_add]
  unfold denom
  refine Finset.sum_congr rfl fun k _ => ?_
  rw [row_sum_idx, val_main_v11_apply, val_main_v10_apply, Ideal.mulf_def, Ideal.hostUnary_exp_def, v3_at, v9_at]

/-- The difference stage at (p, q) is the logit less the logarithm of row p's denominator. -/
theorem v16_at (x : FVec Ideal S8192x1024 .f32) (lab : IVec S8192 32) (p q : Fin 8192) :
    val_main_v16 (F := Ideal) x lab (ix2 p q) = logit x p q - Ideal.log (denom x lab p) := by
  rw [val_main_v16_apply, Ideal.subf_def, v3_at, val_main_v15_apply, val_main_v14_apply, val_main_v13_apply,
    Ideal.hostUnary_log_def, log_col_idx, v12_at]

/-! ## The reference is the loss -/

/-- With real features the reference's result is, at its one index, the specification's loss. -/
theorem ref_eq_loss (x : FVec Ideal S8192x1024 .f32) (lab : IVec S8192 32) (hx : ∀ j, ∃ r : ℝ, x j = (r : EReal)) :
    val_main_v19 (F := Ideal) x lab = fun _ => loss x lab := by
  funext j
  rw [val_main_v19_apply, val_main_v18_apply, val_main_v17_apply, val_main_cst_1_apply, val_main_cst_2_apply,
    Ideal.hostNegf_def, Ideal.negf_def, Ideal.hostDivf_def, Ideal.ofBits_def, Ideal.ofBits_def,
    Ideal.ofBits_zero_f32, zero_add, ofBits_pairs, sum_idx2, ← loss_eq_mean_sub x lab hx]
  exact congrArg (fun s => -(Ideal.div s ((67108864 : ℝ) : EReal)))
    (Finset.sum_congr rfl fun p _ => Finset.sum_congr rfl fun q _ => v16_at x lab p q)

end Cert.Contrastive.Ref

end
-- ==== Proof.RefFinite.lean ====
/-
  The precondition says every feature is a real number.

  The precondition's function compares the absolute value of each feature with the word of +∞ and takes the
  conjunction over the whole array. If the conjunction is 1 then every comparison is 1, so at each index
  max (x j) (-(x j)) < ⊤ in the extended reals; that excludes ⊤ (it is not below itself) and ⊥ (whose negation
  is ⊤), and what is left is the coercion of a real.
-/
import proofs.«148247_j71236327571460_1_alg».proof.Proof.Gen.Pre_finite_inputs
import Idealize.ShloMosaic.Lib.ReduceAll
import Idealize.ShloMosaic.Lib.Pipeline.Value
import Idealize.ShloMosaic.Lib.ValueIdx
import Idealize.ShloMosaic.PureOps.Ideal

noncomputable section

namespace Cert.Contrastive.Ref

open Idealize.ShloMosaic Idealize.ShloMosaic.ValueIdx

/-- The scalar shape has one index. -/
instance subsingleton_scalar_idx : Subsingleton Cert.Pre_finite_inputs.S_.Idx :=
  ⟨fun _ _ => funext fun d => d.elim0⟩

/-- The word with all exponent bits set and no fraction bit denotes +∞. -/
theorem ofBits_inf : Ideal.ofBits .f32 0x7F800000#32 = (⊤ : EReal) := by
  simp [Ideal.ofBits, Ideal.ieee]

/-- An extended real whose absolute value is below +∞ is a real. -/
theorem real_of_abs_lt_top (v : EReal) (h : max v (-v) < ⊤) : ∃ r : ℝ, v = (r : EReal) := by
  induction v using EReal.rec with
  | bot => simp at h
  | coe r => exact ⟨r, rfl⟩
  | top => simp at h

/-- If the precondition's function returns 1 then every feature is a real. -/
theorem finite_of_pre (x : FVec Ideal Cert.Pre_finite_inputs.S8192x1024 .f32) (lab : IVec Cert.Pre_finite_inputs.S8192 32)
    (h : Cert.Pre_finite_inputs.fn (F := Ideal) x lab = fun _ => 1#1) : ∀ j, ∃ r : ℝ, x j = (r : EReal) := by
  intro j
  have h0 := congrFun h ix0
  dsimp only [Cert.Pre_finite_inputs.fn] at h0
  have hj := Host.reduce_andi_all _ _ _ _ _ h0 j
  rw [cmpf_apply, broadcastInDim_apply _ _ _ j ix0 (fun a => a.elim0)] at hj
  have hlt : max (x j) (-(x j)) < (⊤ : EReal) := by
    have e : FloatOps.cmpf (F := Ideal) CmpFPredicate.olt (Host.absf x j)
          (constant (F := Ideal) Cert.Pre_finite_inputs.S_ .f32 (0x7F800000#32) ix0)
        = BitVec.ofBool (decide (max (x j) (-(x j)) < Ideal.ofBits .f32 0x7F800000#32)) := rfl
    rw [e, ofBits_inf] at hj
    by_contra hn
    rw [decide_eq_false hn] at hj
    exact absurd hj (by decide)
  exact real_of_abs_lt_top _ hlt

end Cert.Contrastive.Ref

end
-- ==== Proof.lean ====
/-
  A contrastive (InfoNCE) loss over 8192 feature rows of width 1024 with integer labels, computed two ways.

  The kernel tiles the 8192 × 8192 matrix of pairwise logits into an 8 × 8 grid of 1024 × 1024 tiles. For each tile it
  multiplies a row block of the features by the transpose of a column block, scales by the reciprocal temperature,
  and adds to two per-row accumulators kept across the eight column blocks of a row block: the sum of the row's logits,
  and the sum of the exponentials of the row's logits over the columns carrying the row's label. After the last column
  block it writes out the first sum and the logarithm of the second. The host then forms
  minus (the total of the first) / 8192² plus (the total of the second) / 8192.
  The reference forms all logits at once, divides by the temperature, subtracts from each logit the logarithm of its
  row's masked exponential sum, and takes minus the mean over all 8192² pairs.

  Over the extended reals the two agree when the features are finite: then every logit is a real, every row's
  denominator is a positive real (the row itself carries its own label, so its exponential is among the summands) and so
  has a real logarithm, and minus the mean of (logit minus row term) splits, by linearity of finite real sums, into
  minus the mean logit plus the mean row term; sums over eight blocks of 1024 columns are sums over 8192 columns.
  The kernel's scale is the constant the source spells 1 / temperature; it is read as the exact reciprocal of the
  number the temperature's binary word denotes, so that multiplying by it is dividing by that number, as the reference does.

  The two kernel programs' frames are proved once for any float instance: @main is run as three host operations, the
  kernel region, ten host operations; the region's body obligation is met case by case (first, middle, last column
  block); the feature matrix's buffer is lent half to each of the two windows reading it.
-/
import proofs.«148247_j71236327571460_1_alg».proof.Defs
import proofs.«148247_j71236327571460_1_alg».proof.Proof.Gen.Kernel
import proofs.«148247_j71236327571460_1_alg».proof.Proof.Gen.KernelIdeal
import proofs.«148247_j71236327571460_1_alg».proof.Proof.Gen.ReferenceIdeal
import proofs.«148247_j71236327571460_1_alg».proof.Proof.Gen.Pre_finite_inputs
import proofs.«148247_j71236327571460_1_alg».proof.Proof.Gen.ReferenceIdeal.Run
import proofs.«148247_j71236327571460_1_alg».proof.Proof.Gen.ReferenceIdeal.Read
import proofs.«148247_j71236327571460_1_alg».proof.Proof.K.Frame
import proofs.«148247_j71236327571460_1_alg».proof.Proof.KI.Final
import proofs.«148247_j71236327571460_1_alg».proof.Proof.RefValue
import proofs.«148247_j71236327571460_1_alg».proof.Proof.RefFinite

noncomputable section

namespace Cert.Proof

open Idealize.ShloMosaic Idealize.ShloMosaic.TcCoe Idealize.SL.Sem

/-- The word-level kernel runs to the end, faults nowhere, and leaves both arguments unchanged. -/
theorem frame_kernel : Cert.frame_Kernel (hKernel := Cert.Kernel.Gen.facts) (hPre_finite_inputs := Cert.Pre_finite_inputs.Gen.facts) :=
  fun m ρ _ => Cert.Kernel.Hand.frame m ρ

/-- So does its idealization, -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame m ρ

/-- and the idealized reference: its run with the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The one named constant: the scale 20.0 denotes the reciprocal of the temperature's binary word, 268435456/13421773. -/
theorem preserves : Cert.preserves_Kernel_KernelIdeal :=
  IdealRules.named_const.statement Cert.KernelIdeal.κ "inv_temperature" .f32 0x41A00000#32 ((268435456 / 13421773 : ℝ) : EReal) rfl

/-- From memories agreeing on the arguments, with finite features, both idealized programs end with the loss of the
    arguments as their result. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => fun _ => Cert.Contrastive.loss (Cert.Contrastive.KernelValue.feat m c) (Cert.Contrastive.KernelValue.labs m c),
    Cert.KernelIdeal.Hand.run_value m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v19_eq, (hagree c).1, (hagree c).2]
  exact Cert.Contrastive.Ref.ref_eq_loss _ _ (Cert.Contrastive.Ref.finite_of_pre _ _ (hpre c))

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
